-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x128x128 : Shape := ⟨4, ![8, 19, 128, 128]⟩
abbrev S8x256x128x128 : Shape := ⟨4, ![8, 256, 128, 128]⟩
abbrev S_ : Shape := ⟨0, ![]⟩

class Facts : Prop where
  bcast_S_S8x19x128x128 : S_.BroadcastsInDim S8x19x128x128 (![] : Fin 0 → Fin S8x19x128x128.rank)
  reducesTo_S8x19x128x128_S_d0_1_2_3 : S8x19x128x128.ReducesTo [0, 1, 2, 3] S_
  h_S_ : 0 < S_.numel
  bcast_S_S8x256x128x128 : S_.BroadcastsInDim S8x256x128x128 (![] : Fin 0 → Fin S8x256x128x128.rank)
  reducesTo_S8x256x128x128_S_d0_1_2_3 : S8x256x128x128.ReducesTo [0, 1, 2, 3] S_

variable [Facts]

def fn_part1 {F : FTy → Type} [FloatOps F] (main_v13 : IVec S_ 1) (main_v16 : IVec S8x256x128x128 1) : IVec S_ 1 :=
  let main_c_5 : IVec S_ 1 := constantI S_ 1 1#1
  let main_v17 : IVec S_ 1 := (fun x v => Host.reduce IntOp.andi x v reducesTo_S8x256x128x128_S_d0_1_2_3 h_S_) main_v16 main_c_5
  let main_v18 : IVec S_ 1 := andi main_v13 main_v17
  main_v18

def fn {F : FTy → Type} [FloatOps F] (main_arg0 : FVec F S8x19x128x128 .f32) (main_arg1 : FVec F S8x256x128x128 .f32) (main_arg2 : FVec F S8x19x128x128 .f32) (main_arg3 : FVec F S8x256x128x128 .f32) : IVec S_ 1 :=
  let main_v0 : FVec F S8x19x128x128 .f32 := Host.absf main_arg0
  let main_cst : FVec F S_ .f32 := constant S_ .f32 0x7F800000#32
  let main_v1 : FVec F S8x19x128x128 .f32 := broadcastInDim S8x19x128x128 ![] bcast_S_S8x19x128x128 main_cst
  let main_v2 : IVec S8x19x128x128 1 := cmpf .olt main_v0 main_v1
  let main_c : IVec S_ 1 := constantI S_ 1 1#1
  let main_v3 : IVec S_ 1 := (fun x v => Host.reduce IntOp.andi x v reducesTo_S8x19x128x128_S_d0_1_2_3 h_S_) main_v2 main_c
  let main_v4 : FVec F S8x256x128x128 .f32 := Host.absf main_arg1
  let main_cst_0 : FVec F S_ .f32 := constant S_ .f32 0x7F800000#32
  let main_v5 : FVec F S8x256x128x128 .f32 := broadcastInDim S8x256x128x128 ![] bcast_S_S8x256x128x128 main_cst_0
  let main_v6 : IVec S8x256x128x128 1 := cmpf .olt main_v4 main_v5
  let main_c_1 : IVec S_ 1 := constantI S_ 1 1#1
  let main_v7 : IVec S_ 1 := (fun x v => Host.reduce IntOp.andi x v reducesTo_S8x256x128x128_S_d0_1_2_3 h_S_) main_v6 main_c_1
  let main_v8 : IVec S_ 1 := andi main_v3 main_v7
  let main_v9 : FVec F S8x19x128x128 .f32 := Host.absf main_arg2
  let main_cst_2 : FVec F S_ .f32 := constant S_ .f32 0x7F800000#32
  let main_v10 : FVec F S8x19x128x128 .f32 := broadcastInDim S8x19x128x128 ![] bcast_S_S8x19x128x128 main_cst_2
  let main_v11 : IVec S8x19x128x128 1 := cmpf .olt main_v9 main_v10
  let main_c_3 : IVec S_ 1 := constantI S_ 1 1#1
  let main_v12 : IVec S_ 1 := (fun x v => Host.reduce IntOp.andi x v reducesTo_S8x19x128x128_S_d0_1_2_3 h_S_) main_v11 main_c_3
  let main_v13 : IVec S_ 1 := andi main_v8 main_v12
  let main_v14 : FVec F S8x256x128x128 .f32 := Host.absf main_arg3
  let main_cst_4 : FVec F S_ .f32 := constant S_ .f32 0x7F800000#32
  let main_v15 : FVec F S8x256x128x128 .f32 := broadcastInDim S8x256x128x128 ![] bcast_S_S8x256x128x128 main_cst_4
  let main_v16 : IVec S8x256x128x128 1 := cmpf .olt main_v14 main_v15
  fn_part1 (F := F) main_v13 main_v16
-- ==== Kernel.lean ====
abbrev S8x19x128x128 : Shape := ⟨4, ![8, 19, 128, 128]⟩
abbrev S8x256x128x128 : Shape := ⟨4, ![8, 256, 128, 128]⟩
abbrev S8x19x16384 : Shape := ⟨3, ![8, 19, 16384]⟩
abbrev S8x256x16384 : Shape := ⟨3, ![8, 256, 16384]⟩
abbrev S8x19x256 : Shape := ⟨3, ![8, 19, 256]⟩
abbrev S8x19x1 : Shape := ⟨3, ![8, 19, 1]⟩
abbrev S1x19x8192 : Shape := ⟨3, ![1, 19, 8192]⟩
abbrev S1x256x8192 : Shape := ⟨3, ![1, 256, 8192]⟩
abbrev S1x19x256 : Shape := ⟨3, ![1, 19, 256]⟩
abbrev S1x19x1 : Shape := ⟨3, ![1, 19, 1]⟩
abbrev S19x256 : Shape := ⟨2, ![19, 256]⟩
abbrev S19x1 : Shape := ⟨2, ![19, 1]⟩
abbrev S19x8192 : Shape := ⟨2, ![19, 8192]⟩
abbrev S256x8192 : Shape := ⟨2, ![256, 8192]⟩
abbrev S19 : Shape := ⟨1, ![19]⟩
abbrev S_ : Shape := ⟨0, ![]⟩
abbrev S8x256 : Shape := ⟨2, ![8, 256]⟩
abbrev S8x1x256 : Shape := ⟨3, ![8, 1, 256]⟩
abbrev S256x19 : Shape := ⟨2, ![256, 19]⟩
abbrev S19x19 : Shape := ⟨2, ![19, 19]⟩

abbrev nBuf : Space → Nat
  | .hbm => 78
  | .vmem => 16
  | .smem => 0
  | _ => 0

abbrev bufTy : (tb : Table) → Fin (tcTables nBuf tb) → BufTy
  | .hbm, ⟨0, _⟩ => ⟨S8x19x128x128, .f32⟩
  | .hbm, ⟨1, _⟩ => ⟨S8x256x128x128, .f32⟩
  | .hbm, ⟨2, _⟩ => ⟨S8x19x128x128, .f32⟩
  | .hbm, ⟨3, _⟩ => ⟨S8x256x128x128, .f32⟩
  | .hbm, ⟨4, _⟩ => ⟨S8x19x16384, .f32⟩
  | .hbm, ⟨5, _⟩ => ⟨S8x256x16384, .f32⟩
  | .hbm, ⟨6, _⟩ => ⟨S8x19x16384, .f32⟩
  | .hbm, ⟨7, _⟩ => ⟨S8x256x16384, .f32⟩
  | .hbm, ⟨8, _⟩ => ⟨S8x19x256, .f32⟩
  | .hbm, ⟨9, _⟩ => ⟨S8x19x1, .f32⟩
  | .hbm, ⟨10, _⟩ => ⟨S8x19x256, .f32⟩
  | .hbm, ⟨11, _⟩ => ⟨S8x19x1, .f32⟩
  | .hbm, ⟨12, _⟩ => ⟨S8x19x256, .f32⟩
  | .hbm, ⟨13, _⟩ => ⟨S8x19x256, .f32⟩
  | .hbm, ⟨14, _⟩ => ⟨S8x19x256, .f32⟩
  | .hbm, ⟨15, _⟩ => ⟨S_, .f32⟩
  | .hbm, ⟨16, _⟩ => ⟨S8x256, .f32⟩
  | .hbm, ⟨17, _⟩ => ⟨S8x1x256, .f32⟩
  | .hbm, ⟨18, _⟩ => ⟨S8x1x256, .f32⟩
  | .hbm, ⟨19, _⟩ => ⟨S_, .f32⟩
  | .hbm, ⟨20, _⟩ => ⟨S8x1x256, .f32⟩
  | .hbm, ⟨21, _⟩ => ⟨S8x1x256, .f32⟩
  | .hbm, ⟨22, _⟩ => ⟨S8x19x256, .f32⟩
  | .hbm, ⟨23, _⟩ => ⟨S8x19x256, .f32⟩
  | .hbm, ⟨24, _⟩ => ⟨S_, .f32⟩
  | .hbm, ⟨25, _⟩ => ⟨S19x256, .f32⟩
  | .hbm, ⟨26, _⟩ => ⟨S_, .f32⟩
  | .hbm, ⟨27, _⟩ => ⟨S19x256, .f32⟩
  | .hbm, ⟨28, _⟩ => ⟨S19x256, .f32⟩
  | .hbm, ⟨29, _⟩ => ⟨S8x19x256, .f32⟩
  | .hbm, ⟨30, _⟩ => ⟨S8x19x256, .f32⟩
  | .hbm, ⟨31, _⟩ => ⟨S8x19x256, .f32⟩
  | .hbm, ⟨32, _⟩ => ⟨S_, .f32⟩
  | .hbm, ⟨33, _⟩ => ⟨S8x256, .f32⟩
  | .hbm, ⟨34, _⟩ => ⟨S8x1x256, .f32⟩
  | .hbm, ⟨35, _⟩ => ⟨S8x1x256, .f32⟩
  | .hbm, ⟨36, _⟩ => ⟨S_, .f32⟩
  | .hbm, ⟨37, _⟩ => ⟨S8x1x256, .f32⟩
  | .hbm, ⟨38, _⟩ => ⟨S8x1x256, .f32⟩
  | .hbm, ⟨39, _⟩ => ⟨S8x19x256, .f32⟩
  | .hbm, ⟨40, _⟩ => ⟨S8x19x256, .f32⟩
  | .hbm, ⟨41, _⟩ => ⟨S_, .f32⟩
  | .hbm, ⟨42, _⟩ => ⟨S19x256, .f32⟩
  | .hbm, ⟨43, _⟩ => ⟨S_, .f32⟩
  | .hbm, ⟨44, _⟩ => ⟨S19x256, .f32⟩
  | .hbm, ⟨45, _⟩ => ⟨S19x256, .f32⟩
  | .hbm, ⟨46, _⟩ => ⟨S_, .f32⟩
  | .hbm, ⟨47, _⟩ => ⟨S19, .f32⟩
  | .hbm, ⟨48, _⟩ => ⟨S19x1, .f32⟩
  | .hbm, ⟨49, _⟩ => ⟨S_, .f32⟩
  | .hbm, ⟨50, _⟩ => ⟨S19x1, .f32⟩
  | .hbm, ⟨51, _⟩ => ⟨S19x1, .f32⟩
  | .hbm, ⟨52, _⟩ => ⟨S19x256, .f32⟩
  | .hbm, ⟨53, _⟩ => ⟨S19x256, .f32⟩
  | .hbm, ⟨54, _⟩ => ⟨S_, .f32⟩
  | .hbm, ⟨55, _⟩ => ⟨S19, .f32⟩
  | .hbm, ⟨56, _⟩ => ⟨S19x1, .f32⟩
  | .hbm, ⟨57, _⟩ => ⟨S_, .f32⟩
  | .hbm, ⟨58, _⟩ => ⟨S19x1, .f32⟩
  | .hbm, ⟨59, _⟩ => ⟨S19x1, .f32⟩
  | .hbm, ⟨60, _⟩ => ⟨S19x256, .f32⟩
  | .hbm, ⟨61, _⟩ => ⟨S19x256, .f32⟩
  | .hbm, ⟨62, _⟩ => ⟨S19x256, .f32⟩
  | .hbm, ⟨63, _⟩ => ⟨S_, .f32⟩
  | .hbm, ⟨64, _⟩ => ⟨S19, .f32⟩
  | .hbm, ⟨65, _⟩ => ⟨S19x1, .f32⟩
  | .hbm, ⟨66, _⟩ => ⟨S19x1, .f32⟩
  | .hbm, ⟨67, _⟩ => ⟨S19x256, .f32⟩
  | .hbm, ⟨68, _⟩ => ⟨S19x256, .f32⟩
  | .hbm, ⟨69, _⟩ => ⟨S19x256, .f32⟩
  | .hbm, ⟨70, _⟩ => ⟨S_, .f32⟩
  | .hbm, ⟨71, _⟩ => ⟨S19, .f32⟩
  | .hbm, ⟨72, _⟩ => ⟨S19x1, .f32⟩
  | .hbm, ⟨73, _⟩ => ⟨S19x1, .f32⟩
  | .hbm, ⟨74, _⟩ => ⟨S19x256, .f32⟩
  | .hbm, ⟨75, _⟩ => ⟨S19x256, .f32⟩
  | .hbm, ⟨76, _⟩ => ⟨S256x19, .f32⟩
  | .hbm, ⟨77, _⟩ => ⟨S19x19, .f32⟩
  | .local _ .vmem, ⟨0, _⟩ => ⟨S1x19x8192, .f32⟩
  | .local _ .vmem, ⟨1, _⟩ => ⟨S1x19x8192, .f32⟩
  | .local _ .vmem, ⟨2, _⟩ => ⟨S1x256x8192, .f32⟩
  | .local _ .vmem, ⟨3, _⟩ => ⟨S1x256x8192, .f32⟩
  | .local _ .vmem, ⟨4, _⟩ => ⟨S1x19x256, .f32⟩
  | .local _ .vmem, ⟨5, _⟩ => ⟨S1x19x256, .f32⟩
  | .local _ .vmem, ⟨6, _⟩ => ⟨S1x19x1, .f32⟩
  | .local _ .vmem, ⟨7, _⟩ => ⟨S1x19x1, .f32⟩
  | .local _ .vmem, ⟨8, _⟩ => ⟨S1x19x8192, .f32⟩
  | .local _ .vmem, ⟨9, _⟩ => ⟨S1x19x8192, .f32⟩
  | .local _ .vmem, ⟨10, _⟩ => ⟨S1x256x8192, .f32⟩
  | .local _ .vmem, ⟨11, _⟩ => ⟨S1x256x8192, .f32⟩
  | .local _ .vmem, ⟨12, _⟩ => ⟨S1x19x256, .f32⟩
  | .local _ .vmem, ⟨13, _⟩ => ⟨S1x19x256, .f32⟩
  | .local _ .vmem, ⟨14, _⟩ => ⟨S1x19x1, .f32⟩
  | .local _ .vmem, ⟨15, _⟩ => ⟨S1x19x1, .f32⟩
  | _, _ => ⟨S8x19x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call2_v0 : Ref sig .tc := ⟨.hbm, 62, rfl⟩
abbrev main_call2_cst : Ref sig .tc := ⟨.hbm, 63, rfl⟩
abbrev main_call2_v1 : Ref sig .tc := ⟨.hbm, 64, rfl⟩
abbrev main_call2_v2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call3_v0 : Ref sig .tc := ⟨.hbm, 69, rfl⟩
abbrev main_call3_cst : Ref sig .tc := ⟨.hbm, 70, rfl⟩
abbrev main_call3_v1 : Ref sig .tc := ⟨.hbm, 71, rfl⟩
abbrev main_call3_v2 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x19x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x19x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x19x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x19x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S8x19x128x128_S8x19x16384 : S8x19x128x128.ShapeCasts S8x19x16384
  shapeCasts_S8x256x128x128_S8x256x16384 : S8x256x128x128.ShapeCasts S8x256x16384
  inb_S1x19x256_S1x19x256_0_0_0 : ∀ a, (![0, 0, 0] : Fin 3 → Nat) a + S1x19x256.size a ≤ S1x19x256.size a
  h_S1x19x256 : 0 < S1x19x256.numel
  shapeCasts_S1x19x256_S19x256 : S1x19x256.ShapeCasts S19x256
  shapeCasts_S19x256_S1x19x256 : S19x256.ShapeCasts S1x19x256
  inb_S1x19x1_S1x19x1_0_0_0 : ∀ a, (![0, 0, 0] : Fin 3 → Nat) a + S1x19x1.size a ≤ S1x19x1.size a
  h_S1x19x1 : 0 < S1x19x1.numel
  shapeCasts_S1x19x1_S19x1 : S1x19x1.ShapeCasts S19x1
  shapeCasts_S19x1_S1x19x1 : S19x1.ShapeCasts S1x19x1
  inb_S1x19x8192_S1x19x8192_0_0_0 : ∀ a, (![0, 0, 0] : Fin 3 → Nat) a + S1x19x8192.size a ≤ S1x19x8192.size a
  h_S1x19x8192 : 0 < S1x19x8192.numel
  shapeCasts_S1x19x8192_S19x8192 : S1x19x8192.ShapeCasts S19x8192
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  bitsLt_bf16_f32 : FTy.bits .bf16 < FTy.bits .f32
  reduces_S19x8192_S19 : S19x8192.Reduces [1] S19
  shapeCasts_S19_S19x1 : S19.ShapeCasts S19x1
  bcast_S8x19x1_S8x19x256_0_1_2 : S8x19x1.BroadcastsInDim S8x19x256 (![0, 1, 2] : Fin 3 → Fin S8x19x256.rank)
  reducesTo_S8x19x256_S8x256_d1 : S8x19x256.ReducesTo [1] S8x256
  h_S_ : 0 < S_.numel
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  bcast_S8x1x256_S8x19x256_0_1_2 : S8x1x256.BroadcastsInDim S8x19x256 (![0, 1, 2] : Fin 3 → Fin S8x19x256.rank)
  reducesTo_S8x19x256_S19x256_d0 : S8x19x256.ReducesTo [0] S19x256
  bcast_S_S19x256 : S_.BroadcastsInDim S19x256 (![] : Fin 0 → Fin S19x256.rank)
  reducesTo_S19x256_S19_d1 : S19x256.ReducesTo [1] S19
  bcast_S19_S19x1_0 : S19.BroadcastsInDim S19x1 (![0] : Fin 1 → Fin S19x1.rank)
  bcast_S_S19x1 : S_.BroadcastsInDim S19x1 (![] : Fin 0 → Fin S19x1.rank)
  bcast_S19x1_S19x256_0_1 : S19x1.BroadcastsInDim S19x256 (![0, 1] : Fin 2 → Fin S19x256.rank)
  transposes_S19x256_S256x19_1_0 : S19x256.Transposes [1, 0] S256x19
  dot_S19x8192_S256x8192_S19x256_1_1_0_0_n_n_wf : DotDims.WF S19x8192 S256x8192 S19x256 [1] [1] [0] [0] [] []
  dot_S19x256_S256x19_S19x19_1_0_0_1_n_n_wf : DotDims.WF S19x256 S256x19 S19x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x8192.size a ≤ S8x19x16384.size a
  hwx0_0 : ∀ i : grid0.Coords, EltTy.bits .f32 = 32 ∨ (Rect.block (s := S8x19x16384) S1x19x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x8192.size a ≤ S8x256x16384.size a
  hwx0_1 : ∀ i : grid0.Coords, EltTy.bits .f32 = 32 ∨ (Rect.block (s := S8x256x16384) S1x256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x256.size a ≤ S8x19x256.size a
  hwx0_2 : ∀ i : grid0.Coords, EltTy.bits .f32 = 32 ∨ (Rect.block (s := S8x19x256) S1x19x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x1.size a ≤ S8x19x1.size a
  hwx0_3 : ∀ i : grid0.Coords, EltTy.bits .f32 = 32 ∨ (Rect.block (s := S8x19x1) S1x19x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x19x8192.size a ≤ S8x19x16384.size a
  hwx1_0 : ∀ i : grid1.Coords, EltTy.bits .f32 = 32 ∨ (Rect.block (s := S8x19x16384) S1x19x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x8192.size a ≤ S8x256x16384.size a
  hwx1_1 : ∀ i : grid1.Coords, EltTy.bits .f32 = 32 ∨ (Rect.block (s := S8x256x16384) S1x256x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x19x256.size a ≤ S8x19x256.size a
  hwx1_2 : ∀ i : grid1.Coords, EltTy.bits .f32 = 32 ∨ (Rect.block (s := S8x19x256) S1x19x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x19x1.size a ≤ S8x19x1.size a
  hwx1_3 : ∀ i : grid1.Coords, EltTy.bits .f32 = 32 ∨ (Rect.block (s := S8x19x1) S1x19x1.size (cc1_transform_3 i) (hinb1_3 i)).WholeWords (EltTy.packing .f32)

variable [Facts₀]

def dot_S19x8192_S256x8192_S19x256_1_1_0_0_n_n : DotDims S19x8192 S256x8192 S19x256 where
  lhsContracting := [1]
  rhsContracting := [1]
  lhsNonContracting := [0]
  rhsNonContracting := [0]
  lhsBatch := []
  rhsBatch := []
  wf := dot_S19x8192_S256x8192_S19x256_1_1_0_0_n_n_wf
def dot_S19x256_S256x19_S19x19_1_0_0_1_n_n : DotDims S19x256 S256x19 S19x19 where
  lhsContracting := [1]
  rhsContracting := [0]
  lhsNonContracting := [0]
  rhsNonContracting := [1]
  lhsBatch := []
  rhsBatch := []
  wf := dot_S19x256_S256x19_S19x19_1_0_0_1_n_n_wf

abbrev win0_0 : Pipeline.Window sig grid0 :=
  Pipeline.Window.ofSpec (Memref.whole main_v0) S1x19x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x19x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x19x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x19x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S1x19x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S1x19x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x19x128x128 : Shape := ⟨4, ![8, 19, 128, 128]⟩
abbrev S8x256x128x128 : Shape := ⟨4, ![8, 256, 128, 128]⟩
abbrev S8x19x16384 : Shape := ⟨3, ![8, 19, 16384]⟩
abbrev S8x256x16384 : Shape := ⟨3, ![8, 256, 16384]⟩
abbrev S8x19x256 : Shape := ⟨3, ![8, 19, 256]⟩
abbrev S_ : Shape := ⟨0, ![]⟩
abbrev S8x19 : Shape := ⟨2, ![8, 19]⟩
abbrev S8x19x1 : Shape := ⟨3, ![8, 19, 1]⟩
abbrev S8x256 : Shape := ⟨2, ![8, 256]⟩
abbrev S8x1x256 : Shape := ⟨3, ![8, 1, 256]⟩
abbrev S19x256 : Shape := ⟨2, ![19, 256]⟩
abbrev S19 : Shape := ⟨1, ![19]⟩
abbrev S19x1 : Shape := ⟨2, ![19, 1]⟩
abbrev S256x19 : Shape := ⟨2, ![256, 19]⟩
abbrev S19x19 : Shape := ⟨2, ![19, 19]⟩

abbrev nBuf : Space → Nat
  | .hbm => 82
  | .vmem => 0
  | .smem => 0
  | _ => 0

abbrev bufTy : (tb : Table) → Fin (tcTables nBuf tb) → BufTy
  | .hbm, ⟨0, _⟩ => ⟨S8x19x128x128, .f32⟩
  | .hbm, ⟨1, _⟩ => ⟨S8x256x128x128, .f32⟩
  | .hbm, ⟨2, _⟩ => ⟨S8x19x128x128, .f32⟩
  | .hbm, ⟨3, _⟩ => ⟨S8x256x128x128, .f32⟩
  | .hbm, ⟨4, _⟩ => ⟨S8x19x16384, .f32⟩
  | .hbm, ⟨5, _⟩ => ⟨S8x256x16384, .f32⟩
  | .hbm, ⟨6, _⟩ => ⟨S8x19x256, .f32⟩
  | .hbm, ⟨7, _⟩ => ⟨S_, .f32⟩
  | .hbm, ⟨8, _⟩ => ⟨S8x19, .f32⟩
  | .hbm, ⟨9, _⟩ => ⟨S8x19x1, .f32⟩
  | .hbm, ⟨10, _⟩ => ⟨S8x19x256, .f32⟩
  | .hbm, ⟨11, _⟩ => ⟨S8x19x256, .f32⟩
  | .hbm, ⟨12, _⟩ => ⟨S8x19x256, .f32⟩
  | .hbm, ⟨13, _⟩ => ⟨S_, .f32⟩
  | .hbm, ⟨14, _⟩ => ⟨S8x256, .f32⟩
  | .hbm, ⟨15, _⟩ => ⟨S8x1x256, .f32⟩
  | .hbm, ⟨16, _⟩ => ⟨S8x1x256, .f32⟩
  | .hbm, ⟨17, _⟩ => ⟨S_, .f32⟩
  | .hbm, ⟨18, _⟩ => ⟨S8x1x256, .f32⟩
  | .hbm, ⟨19, _⟩ => ⟨S8x1x256, .f32⟩
  | .hbm, ⟨20, _⟩ => ⟨S8x19x256, .f32⟩
  | .hbm, ⟨21, _⟩ => ⟨S8x19x256, .f32⟩
  | .hbm, ⟨22, _⟩ => ⟨S_, .f32⟩
  | .hbm, ⟨23, _⟩ => ⟨S19x256, .f32⟩
  | .hbm, ⟨24, _⟩ => ⟨S_, .f32⟩
  | .hbm, ⟨25, _⟩ => ⟨S19x256, .f32⟩
  | .hbm, ⟨26, _⟩ => ⟨S19x256, .f32⟩
  | .hbm, ⟨27, _⟩ => ⟨S8x19x16384, .f32⟩
  | .hbm, ⟨28, _⟩ => ⟨S8x256x16384, .f32⟩
  | .hbm, ⟨29, _⟩ => ⟨S8x19x256, .f32⟩
  | .hbm, ⟨30, _⟩ => ⟨S_, .f32⟩
  | .hbm, ⟨31, _⟩ => ⟨S8x19, .f32⟩
  | .hbm, ⟨32, _⟩ => ⟨S8x19x1, .f32⟩
  | .hbm, ⟨33, _⟩ => ⟨S8x19x256, .f32⟩
  | .hbm, ⟨34, _⟩ => ⟨S8x19x256, .f32⟩
  | .hbm, ⟨35, _⟩ => ⟨S8x19x256, .f32⟩
  | .hbm, ⟨36, _⟩ => ⟨S_, .f32⟩
  | .hbm, ⟨37, _⟩ => ⟨S8x256, .f32⟩
  | .hbm, ⟨38, _⟩ => ⟨S8x1x256, .f32⟩
  | .hbm, ⟨39, _⟩ => ⟨S8x1x256, .f32⟩
  | .hbm, ⟨40, _⟩ => ⟨S_, .f32⟩
  | .hbm, ⟨41, _⟩ => ⟨S8x1x256, .f32⟩
  | .hbm, ⟨42, _⟩ => ⟨S8x1x256, .f32⟩
  | .hbm, ⟨43, _⟩ => ⟨S8x19x256, .f32⟩
  | .hbm, ⟨44, _⟩ => ⟨S8x19x256, .f32⟩
  | .hbm, ⟨45, _⟩ => ⟨S_, .f32⟩
  | .hbm, ⟨46, _⟩ => ⟨S19x256, .f32⟩
  | .hbm, ⟨47, _⟩ => ⟨S_, .f32⟩
  | .hbm, ⟨48, _⟩ => ⟨S19x256, .f32⟩
  | .hbm, ⟨49, _⟩ => ⟨S19x256, .f32⟩
  | .hbm, ⟨50, _⟩ => ⟨S_, .f32⟩
  | .hbm, ⟨51, _⟩ => ⟨S19, .f32⟩
  | .hbm, ⟨52, _⟩ => ⟨S19x1, .f32⟩
  | .hbm, ⟨53, _⟩ => ⟨S_, .f32⟩
  | .hbm, ⟨54, _⟩ => ⟨S19x1, .f32⟩
  | .hbm, ⟨55, _⟩ => ⟨S19x1, .f32⟩
  | .hbm, ⟨56, _⟩ => ⟨S19x256, .f32⟩
  | .hbm, ⟨57, _⟩ => ⟨S19x256, .f32⟩
  | .hbm, ⟨58, _⟩ => ⟨S_, .f32⟩
  | .hbm, ⟨59, _⟩ => ⟨S19, .f32⟩
  | .hbm, ⟨60, _⟩ => ⟨S19x1, .f32⟩
  | .hbm, ⟨61, _⟩ => ⟨S_, .f32⟩
  | .hbm, ⟨62, _⟩ => ⟨S19x1, .f32⟩
  | .hbm, ⟨63, _⟩ => ⟨S19x1, .f32⟩
  | .hbm, ⟨64, _⟩ => ⟨S19x256, .f32⟩
  | .hbm, ⟨65, _⟩ => ⟨S19x256, .f32⟩
  | .hbm, ⟨66, _⟩ => ⟨S19x256, .f32⟩
  | .hbm, ⟨67, _⟩ => ⟨S_, .f32⟩
  | .hbm, ⟨68, _⟩ => ⟨S19, .f32⟩
  | .hbm, ⟨69, _⟩ => ⟨S19x1, .f32⟩
  | .hbm, ⟨70, _⟩ => ⟨S19x1, .f32⟩
  | .hbm, ⟨71, _⟩ => ⟨S19x256, .f32⟩
  | .hbm, ⟨72, _⟩ => ⟨S19x256, .f32⟩
  | .hbm, ⟨73, _⟩ => ⟨S19x256, .f32⟩
  | .hbm, ⟨74, _⟩ => ⟨S_, .f32⟩
  | .hbm, ⟨75, _⟩ => ⟨S19, .f32⟩
  | .hbm, ⟨76, _⟩ => ⟨S19x1, .f32⟩
  | .hbm, ⟨77, _⟩ => ⟨S19x1, .f32⟩
  | .hbm, ⟨78, _⟩ => ⟨S19x256, .f32⟩
  | .hbm, ⟨79, _⟩ => ⟨S19x256, .f32⟩
  | .hbm, ⟨80, _⟩ => ⟨S256x19, .f32⟩
  | .hbm, ⟨81, _⟩ => ⟨S19x19, .f32⟩
  | _, _ => ⟨S8x19x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_call1_v2 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_call2_v2 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_call3_v2 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩

abbrev nD : Nat := 1
abbrev τ : Topo := Topo.v7x

variable {F : FTy → Type} [FloatOps F]

class Facts₀ : Prop where
  shapeCasts_S8x19x128x128_S8x19x16384 : S8x19x128x128.ShapeCasts S8x19x16384
  shapeCasts_S8x256x128x128_S8x256x16384 : S8x256x128x128.ShapeCasts S8x256x16384
  reducesTo_S8x19x16384_S8x19_d2 : S8x19x16384.ReducesTo [2] S8x19
  h_S_ : 0 < S_.numel
  bcast_S8x19_S8x19x1_0_1 : S8x19.BroadcastsInDim S8x19x1 (![0, 1] : Fin 2 → Fin S8x19x1.rank)
  bcast_S8x19x1_S8x19x256_0_1_2 : S8x19x1.BroadcastsInDim S8x19x256 (![0, 1, 2] : Fin 3 → Fin S8x19x256.rank)
  reducesTo_S8x19x256_S8x256_d1 : S8x19x256.ReducesTo [1] S8x256
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  bcast_S8x1x256_S8x19x256_0_1_2 : S8x1x256.BroadcastsInDim S8x19x256 (![0, 1, 2] : Fin 3 → Fin S8x19x256.rank)
  reducesTo_S8x19x256_S19x256_d0 : S8x19x256.ReducesTo [0] S19x256
  bcast_S_S19x256 : S_.BroadcastsInDim S19x256 (![] : Fin 0 → Fin S19x256.rank)
  reducesTo_S19x256_S19_d1 : S19x256.ReducesTo [1] S19
  bcast_S19_S19x1_0 : S19.BroadcastsInDim S19x1 (![0] : Fin 1 → Fin S19x1.rank)
  bcast_S_S19x1 : S_.BroadcastsInDim S19x1 (![] : Fin 0 → Fin S19x1.rank)
  bcast_S19x1_S19x256_0_1 : S19x1.BroadcastsInDim S19x256 (![0, 1] : Fin 2 → Fin S19x256.rank)
  transposes_S19x256_S256x19_1_0 : S19x256.Transposes [1, 0] S256x19
  dot_S8x19x16384_S8x256x16384_S8x19x256_2_2_1_1_0_0_wf : DotDims.WF S8x19x16384 S8x256x16384 S8x19x256 [2] [2] [1] [1] [0] [0]
  dot_S19x256_S256x19_S19x19_1_0_0_1_n_n_wf : DotDims.WF S19x256 S256x19 S19x19 [1] [0] [0] [1] [] []

variable [Facts₀]

def dot_S8x19x16384_S8x256x16384_S8x19x256_2_2_1_1_0_0 : DotDims S8x19x16384 S8x256x16384 S8x19x256 where
  lhsContracting := [2]
  rhsContracting := [2]
  lhsNonContracting := [1]
  rhsNonContracting := [1]
  lhsBatch := [0]
  rhsBatch := [0]
  wf := dot_S8x19x16384_S8x256x16384_S8x19x256_2_2_1_1_0_0_wf
def dot_S19x256_S256x19_S19x19_1_0_0_1_n_n : DotDims S19x256 S256x19 S19x19 where
  lhsContracting := [1]
  rhsContracting := [0]
  lhsNonContracting := [0]
  rhsNonContracting := [1]
  lhsBatch := []
  rhsBatch := []
  wf := dot_S19x256_S256x19_S19x19_1_0_0_1_n_n_wf

class Facts : Prop extends Facts₀ where

variable [Facts]
-- ==== Proof.KernelRun.lean ====
/-
  The idealized kernel's run with every unscoped buffer of a core NAMED after the run: the program is two kernel
  regions among stretches of host operations, and the contents of a core's buffers after the last stretch are the
  fold `Gen.W12` of the launch memory through the stretches and the two regions' write-backs. The frame theorem
  keeps only the argument arrays of that reading; here the same launch over the same segments keeps all of it, so
  that the result array can be read as a value.
-/
import proofs.«117822_j8675833938581_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped
    buffer of each core holds the fold's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The same run, read at @main's result buffer and at the four argument arrays. -/
theorem run_result : θ_run defs (onTc (τ := τ) (main (F := F))) ⟨m, fun _ => 0, ρ⟩ (fun r => ∀ c : Dev nD,
      r.2.mem ((c.tc : Thread nD τ).loc main_v45) = W12 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨h c _ (mem_uc main_v45 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c)⟩)
    (run_all m ρ)

end Cert.KernelIdeal.Whole

end
-- ==== Proof.Tail.lean ====
/-
  What both programs do with the four accumulated arrays — the class-weighted sums `vec` (per batch, class and
  channel) and the class masses `ps` (per batch and class) of each of the two image sets —, written once as pure
  functions: the weighted average `vec / ps`, its normalisation over the class axis (the Euclidean norm clamped
  below by the small constant), the mean over the batch, the centring of each class row over the channels, the
  scaling of each centred row to unit length, and the matrix of inner products of the two sets' rows.
-/
import proofs.«117822_j8675833938581_1_alg».proof.Proof.Gen.KernelIdeal

noncomputable section

namespace Cert.KernelIdeal.Whole

open Cert.KernelIdeal Cert.KernelIdeal.Gen Idealize.ShloMosaic

variable {F : FTy → Type} [FloatOps F]

/-- The context matrix of one image set: `vec / ps`, each (batch, channel) column divided by its Euclidean norm over
    the classes clamped below, averaged over the eight batches. -/
def context (vec : (⟨S8x19x256, .f32⟩ : BufTy).Contents (Elt F)) (ps : (⟨S8x19x1, .f32⟩ : BufTy).Contents (Elt F)) :
    (⟨S19x256, .f32⟩ : BufTy).Contents (Elt F) :=
  let avg : (⟨S8x19x256, .f32⟩ : BufTy).Contents (Elt F) :=
    Host.divf vec (broadcastInDim S8x19x256 ![0, 1, 2] bcast_S8x19x1_S8x19x256_0_1_2 ps)
  let nrm : (⟨S8x1x256, .f32⟩ : BufTy).Contents (Elt F) :=
    Host.sqrt (broadcastInDim S8x1x256 ![0, 2] bcast_S8x256_S8x1x256_0_2
      (Host.reduceAdd (mulf avg avg) (constant S_ .f32 0x00000000#32) reducesTo_S8x19x256_S8x256_d1 h_S_))
  let clamped : (⟨S8x1x256, .f32⟩ : BufTy).Contents (Elt F) :=
    maximumf nrm (broadcastInDim S8x1x256 ![] bcast_S_S8x1x256 (constant S_ .f32 0x2B8CBCCC#32))
  let unitCols : (⟨S8x19x256, .f32⟩ : BufTy).Contents (Elt F) :=
    Host.divf avg (broadcastInDim S8x19x256 ![0, 1, 2] bcast_S8x1x256_S8x19x256_0_1_2 clamped)
  Host.divf (Host.reduceAdd unitCols (constant S_ .f32 0x00000000#32) reducesTo_S8x19x256_S19x256_d0 h_S_)
    (broadcastInDim S19x256 ![] bcast_S_S19x256 (constant S_ .f32 0x41000000#32))

/-- Each class row minus its mean over the 256 channels. -/
def centred (x : (⟨S19x256, .f32⟩ : BufTy).Contents (Elt F)) : (⟨S19x256, .f32⟩ : BufTy).Contents (Elt F) :=
  subf x (broadcastInDim S19x256 ![0, 1] bcast_S19x1_S19x256_0_1
    (Host.divf (broadcastInDim S19x1 ![0] bcast_S19_S19x1_0
        (Host.reduceAdd x (constant S_ .f32 0x00000000#32) reducesTo_S19x256_S19_d1 h_S_))
      (broadcastInDim S19x1 ![] bcast_S_S19x1 (constant S_ .f32 0x43800000#32))))

/-- Each row divided by its Euclidean norm over the channels. -/
def unitRows (x : (⟨S19x256, .f32⟩ : BufTy).Contents (Elt F)) : (⟨S19x256, .f32⟩ : BufTy).Contents (Elt F) :=
  Host.divf x (broadcastInDim S19x256 ![0, 1] bcast_S19x1_S19x256_0_1
    (Host.sqrt (broadcastInDim S19x1 ![0] bcast_S19_S19x1_0
      (Host.reduceAdd (mulf x x) (constant S_ .f32 0x00000000#32) reducesTo_S19x256_S19_d1 h_S_))))

/-- The 19 × 19 matrix of correlations between the class rows of the two context matrices. -/
def correlation (vec1 : (⟨S8x19x256, .f32⟩ : BufTy).Contents (Elt F)) (ps1 : (⟨S8x19x1, .f32⟩ : BufTy).Contents (Elt F))
    (vec2 : (⟨S8x19x256, .f32⟩ : BufTy).Contents (Elt F)) (ps2 : (⟨S8x19x1, .f32⟩ : BufTy).Contents (Elt F)) :
    (⟨S19x19, .f32⟩ : BufTy).Contents (Elt F) :=
  Host.dotGeneral dot_S19x256_S256x19_S19x19_1_0_0_1_n_n none (unitRows (centred (context vec1 ps1)))
    (transpose S256x19 [1, 0] (unitRows (centred (context vec2 ps2))) transposes_S19x256_S256x19_1_0)

end Cert.KernelIdeal.Whole

end
-- ==== Proof.KernelTail.lean ====
/-
  The result buffer after the idealized kernel's last host stretch, read back through the nine stretches that follow
  the two regions: it is the correlation matrix of the four arrays the regions leave (the two weighted sums and the
  two class masses), whatever those are.
-/
import proofs.«117822_j8675833938581_1_alg».proof.Proof.Gen.KernelIdeal.Frame
import proofs.«117822_j8675833938581_1_alg».proof.Proof.Tail
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The host stretches after the regions compute the correlation matrix of the regions' four output arrays. -/
theorem result_eq (c : Dev nD) :
    W12 m ρ c (Proc.devRef .tc main_v45)
      = correlation (W3 m ρ c (Proc.devRef .tc main_v4_0)) (W3 m ρ c (Proc.devRef .tc main_v4_1))
          (W3 m ρ c (Proc.devRef .tc main_v5_0)) (W3 m ρ c (Proc.devRef .tc main_v5_1)) := by
  show StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1
      (StableHlo.after hostOps2 (W3 m ρ c))))))))) (Proc.devRef .tc main_v45) = _
  generalize W3 m ρ c = Wx
  simp only [hostOps2, hostOps2_1, hostOps2_2, hostOps2_3, hostOps2_4, hostOps2_5, hostOps2_6, hostOps2_7, hostOps2_8]
  after_results_simp
  rfl

end Cert.KernelIdeal.Whole

end
-- ==== Proof.Body.lean ====
/-
  What one run of the kernel body leaves in the two output blocks, for either region (the two regions run the same
  body): in the accumulating case the weighted-sum block is the block found there plus the product of the point's
  mask tile with its feature tile, and the mass block is the block found there plus the row sums of the mask tile; in
  the first-point case the same with the zero blocks the body stores first in place of what was found.
-/
import proofs.«117822_j8675833938581_1_alg».proof.Proof.Gen.KernelIdeal.Frame
import Idealize.ShloMosaic.Lib.Pipeline.Value
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.SL.Sem Idealize.ShloMosaic.Tactic

variable {F : FTy → Type} [FloatOps F]

theorem hz3 : (![0, 0, 0] : Fin 3 → Nat) = fun _ => 0 := funext fun a => by fin_cases a <;> rfl

/-! ## Region 0 -/

/-- Accumulating case, weighted sums: the one covering store's payload over the whole buffers. -/
theorem out0_B_2_eq (c : Dev nD) (i : grid0.Coords) (a2 : Memref sig .tc .vmem S1x19x8192 .f32) (h2 : a2.IsWhole)
    (a3 : Memref sig .tc .vmem S1x256x8192 .f32) (h3 : a3.IsWhole) (a4 : Memref sig .tc .vmem S1x19x256 .f32) (h4 : a4.IsWhole)
    (a5 : Memref sig .tc .vmem S1x19x1 .f32) (h5 : a5.IsWhole) (hc : ¬cond0_0 i)
    (x0 : Vec F S1x19x8192 .f32) (x1 : Vec F S1x256x8192 .f32) (xo2 : Vec F S1x19x256 .f32) (xo3 : Vec F S1x19x1 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz3]
  simp only [View.readAt_eq_ld, h2.read_unread, h3.read_unread, h4.read_unread, View.ld_unit_zero (S := S1x19x8192) hz3,
    View.ld_unit_zero (S := S1x256x8192) hz3, View.ld_unit_zero (S := S1x19x256) hz3]

/-- Accumulating case, class masses. -/
theorem out0_B_3_eq (c : Dev nD) (i : grid0.Coords) (a2 : Memref sig .tc .vmem S1x19x8192 .f32) (h2 : a2.IsWhole)
    (a3 : Memref sig .tc .vmem S1x256x8192 .f32) (h3 : a3.IsWhole) (a4 : Memref sig .tc .vmem S1x19x256 .f32) (h4 : a4.IsWhole)
    (a5 : Memref sig .tc .vmem S1x19x1 .f32) (h5 : a5.IsWhole) (hc : ¬cond0_0 i)
    (x0 : Vec F S1x19x8192 .f32) (x1 : Vec F S1x256x8192 .f32) (xo2 : Vec F S1x19x256 .f32) (xo3 : Vec F S1x19x1 .f32) :
    out0_B_3 c i a2 h2 a3 h3 a4 h4 a5 h5 hc x0 x1 xo2 xo3 = k0_pay5 x0 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz3]
  simp only [View.readAt_eq_ld, h2.read_unread, h5.read_unread, View.ld_unit_zero (S := S1x19x8192) hz3,
    View.ld_unit_zero (S := S1x19x1) hz3]

/-- First-point case, weighted sums: the zero block is stored, read back, and the product added to it. -/
theorem out0_A_2_eq (c : Dev nD) (i : grid0.Coords) (a2 : Memref sig .tc .vmem S1x19x8192 .f32) (h2 : a2.IsWhole)
    (a3 : Memref sig .tc .vmem S1x256x8192 .f32) (h3 : a3.IsWhole) (a4 : Memref sig .tc .vmem S1x19x256 .f32) (h4 : a4.IsWhole)
    (a5 : Memref sig .tc .vmem S1x19x1 .f32) (h5 : a5.IsWhole) (hc : cond0_0 i)
    (x0 : Vec F S1x19x8192 .f32) (x1 : Vec F S1x256x8192 .f32) :
    out0_A_2 c i a2 h2 a3 h3 a4 h4 a5 h5 hc x0 x1 = k0_pay4 x0 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x19x256) hz3, View.readCov_unit_zero (S := S1x19x256) _ hz3]
  simp only [View.readAt_eq_ld, h2.read_unread, h3.read_unread, View.ld_unit_zero (S := S1x19x8192) hz3,
    View.ld_unit_zero (S := S1x256x8192) hz3]

/-- First-point case, class masses. -/
theorem out0_A_3_eq (c : Dev nD) (i : grid0.Coords) (a2 : Memref sig .tc .vmem S1x19x8192 .f32) (h2 : a2.IsWhole)
    (a3 : Memref sig .tc .vmem S1x256x8192 .f32) (h3 : a3.IsWhole) (a4 : Memref sig .tc .vmem S1x19x256 .f32) (h4 : a4.IsWhole)
    (a5 : Memref sig .tc .vmem S1x19x1 .f32) (h5 : a5.IsWhole) (hc : cond0_0 i)
    (x0 : Vec F S1x19x8192 .f32) (x1 : Vec F S1x256x8192 .f32) :
    out0_A_3 c i a2 h2 a3 h3 a4 h4 a5 h5 hc x0 x1 = k0_pay5 x0 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x19x1) hz3, View.readCov_unit_zero (S := S1x19x1) _ hz3]
  simp only [View.readAt_eq_ld, h2.read_unread, View.ld_unit_zero (S := S1x19x8192) hz3]

/-! ## Region 1 -/

/-- Accumulating case, weighted sums: the one covering store's payload over the whole buffers. -/
theorem out1_B_2_eq (c : Dev nD) (i : grid1.Coords) (a2 : Memref sig .tc .vmem S1x19x8192 .f32) (h2 : a2.IsWhole)
    (a3 : Memref sig .tc .vmem S1x256x8192 .f32) (h3 : a3.IsWhole) (a4 : Memref sig .tc .vmem S1x19x256 .f32) (h4 : a4.IsWhole)
    (a5 : Memref sig .tc .vmem S1x19x1 .f32) (h5 : a5.IsWhole) (hc : ¬cond1_0 i)
    (x0 : Vec F S1x19x8192 .f32) (x1 : Vec F S1x256x8192 .f32) (xo2 : Vec F S1x19x256 .f32) (xo3 : Vec F S1x19x1 .f32) :
    out1_B_2 c i a2 h2 a3 h3 a4 h4 a5 h5 hc x0 x1 xo2 xo3 = k1_pay4 x0 x1 xo2 := by
  unfold out1_B_2
  rw [View.read_writes_eq_canon _ _ _ (cover1_B_2 c i a2 h2 a3 h3 a4 h4 a5 h5 hc x0 x1 xo2 xo3)]
  unfold kernelRun1_B
  dsimp only
  rw [View.canon_unit_zero hz3]
  simp only [View.readAt_eq_ld, h2.read_unread, h3.read_unread, h4.read_unread, View.ld_unit_zero (S := S1x19x8192) hz3,
    View.ld_unit_zero (S := S1x256x8192) hz3, View.ld_unit_zero (S := S1x19x256) hz3]

/-- Accumulating case, class masses. -/
theorem out1_B_3_eq (c : Dev nD) (i : grid1.Coords) (a2 : Memref sig .tc .vmem S1x19x8192 .f32) (h2 : a2.IsWhole)
    (a3 : Memref sig .tc .vmem S1x256x8192 .f32) (h3 : a3.IsWhole) (a4 : Memref sig .tc .vmem S1x19x256 .f32) (h4 : a4.IsWhole)
    (a5 : Memref sig .tc .vmem S1x19x1 .f32) (h5 : a5.IsWhole) (hc : ¬cond1_0 i)
    (x0 : Vec F S1x19x8192 .f32) (x1 : Vec F S1x256x8192 .f32) (xo2 : Vec F S1x19x256 .f32) (xo3 : Vec F S1x19x1 .f32) :
    out1_B_3 c i a2 h2 a3 h3 a4 h4 a5 h5 hc x0 x1 xo2 xo3 = k1_pay5 x0 xo3 := by
  unfold out1_B_3
  rw [View.read_writes_eq_canon _ _ _ (cover1_B_3 c i a2 h2 a3 h3 a4 h4 a5 h5 hc x0 x1 xo2 xo3)]
  unfold kernelRun1_B
  dsimp only
  rw [View.canon_unit_zero hz3]
  simp only [View.readAt_eq_ld, h2.read_unread, h5.read_unread, View.ld_unit_zero (S := S1x19x8192) hz3,
    View.ld_unit_zero (S := S1x19x1) hz3]

/-- First-point case, weighted sums: the zero block is stored, read back, and the product added to it. -/
theorem out1_A_2_eq (c : Dev nD) (i : grid1.Coords) (a2 : Memref sig .tc .vmem S1x19x8192 .f32) (h2 : a2.IsWhole)
    (a3 : Memref sig .tc .vmem S1x256x8192 .f32) (h3 : a3.IsWhole) (a4 : Memref sig .tc .vmem S1x19x256 .f32) (h4 : a4.IsWhole)
    (a5 : Memref sig .tc .vmem S1x19x1 .f32) (h5 : a5.IsWhole) (hc : cond1_0 i)
    (x0 : Vec F S1x19x8192 .f32) (x1 : Vec F S1x256x8192 .f32) :
    out1_A_2 c i a2 h2 a3 h3 a4 h4 a5 h5 hc x0 x1 = k1_pay4 x0 x1 k1_pay1 := by
  unfold out1_A_2
  rw [View.read_writes_eq_canon _ _ _ (cover1_A_2 c i a2 h2 a3 h3 a4 h4 a5 h5 hc x0 x1)]
  unfold kernelRun1_A
  dsimp only
  sl_unfold_words
  rw [View.canon_cons_unit_zero (S := S1x19x256) hz3, View.readCov_unit_zero (S := S1x19x256) _ hz3]
  simp only [View.readAt_eq_ld, h2.read_unread, h3.read_unread, View.ld_unit_zero (S := S1x19x8192) hz3,
    View.ld_unit_zero (S := S1x256x8192) hz3]

/-- First-point case, class masses. -/
theorem out1_A_3_eq (c : Dev nD) (i : grid1.Coords) (a2 : Memref sig .tc .vmem S1x19x8192 .f32) (h2 : a2.IsWhole)
    (a3 : Memref sig .tc .vmem S1x256x8192 .f32) (h3 : a3.IsWhole) (a4 : Memref sig .tc .vmem S1x19x256 .f32) (h4 : a4.IsWhole)
    (a5 : Memref sig .tc .vmem S1x19x1 .f32) (h5 : a5.IsWhole) (hc : cond1_0 i)
    (x0 : Vec F S1x19x8192 .f32) (x1 : Vec F S1x256x8192 .f32) :
    out1_A_3 c i a2 h2 a3 h3 a4 h4 a5 h5 hc x0 x1 = k1_pay5 x0 k1_pay2 := by
  unfold out1_A_3
  rw [View.read_writes_eq_canon _ _ _ (cover1_A_3 c i a2 h2 a3 h3 a4 h4 a5 h5 hc x0 x1)]
  unfold kernelRun1_A
  dsimp only
  sl_unfold_words
  rw [View.canon_cons_unit_zero (S := S1x19x1) hz3, View.readCov_unit_zero (S := S1x19x1) _ hz3]
  simp only [View.readAt_eq_ld, h2.read_unread, View.ld_unit_zero (S := S1x19x8192) hz3]

end Cert.KernelIdeal.Whole

end
-- ==== Proof.Payload.lean ====
/-
  The body's arithmetic read at an index, on extended reals. A [19, 8192] mask tile `p` and a [256, 8192] feature tile
  `f` contracted over the 8192 positions give, at class `k` and channel `cc`, the sum over `j` of `p k j * f cc j`; the row
  sum of the mask tile at class `k` is the sum over `j` of `p k j`. The stores add these to the block found in the
  output buffers; the leading unit axis of every block is dropped before and put back after.
-/
import proofs.«117822_j8675833938581_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Whole

open Cert.KernelIdeal Cert.KernelIdeal.Gen
open Idealize.ShloMosaic Idealize.ShloMosaic.ValueIdx

/-! ## The tile product's operand indices -/

theorem lhs_coord0 (i : S19x256.Idx) (q : dot_S19x8192_S256x8192_S19x256_1_1_0_0_n_n.contr.Idx) :
    (dot_S19x8192_S256x8192_S19x256_1_1_0_0_n_n.lhsIdx i q 0).val = (i 0).val := by
  unfold DotDims.lhsIdx
  rw [dif_neg (show ¬(0 : Fin S19x8192.rank) ∈ dot_S19x8192_S256x8192_S19x256_1_1_0_0_n_n.lhsBatch by decide),
    dif_pos (show (0 : Fin S19x8192.rank) ∈ dot_S19x8192_S256x8192_S19x256_1_1_0_0_n_n.lhsNonContracting by decide)]
  rfl
theorem lhs_coord1 (i : S19x256.Idx) (q : dot_S19x8192_S256x8192_S19x256_1_1_0_0_n_n.contr.Idx) :
    (dot_S19x8192_S256x8192_S19x256_1_1_0_0_n_n.lhsIdx i q 1).val = (q ⟨0, by decide⟩).val :=
  dot_S19x8192_S256x8192_S19x256_1_1_0_0_n_n.lhsIdx_val_of_single rfl i q
theorem rhs_coord0 (i : S19x256.Idx) (q : dot_S19x8192_S256x8192_S19x256_1_1_0_0_n_n.contr.Idx) :
    (dot_S19x8192_S256x8192_S19x256_1_1_0_0_n_n.rhsIdx i q 0).val = (i 1).val := by
  unfold DotDims.rhsIdx
  rw [dif_neg (show ¬(0 : Fin S256x8192.rank) ∈ dot_S19x8192_S256x8192_S19x256_1_1_0_0_n_n.rhsBatch by decide),
    dif_pos (show (0 : Fin S256x8192.rank) ∈ dot_S19x8192_S256x8192_S19x256_1_1_0_0_n_n.rhsNonContracting by decide)]
  rfl
theorem rhs_coord1 (i : S19x256.Idx) (q : dot_S19x8192_S256x8192_S19x256_1_1_0_0_n_n.contr.Idx) :
    (dot_S19x8192_S256x8192_S19x256_1_1_0_0_n_n.rhsIdx i q 1).val = (q ⟨0, by decide⟩).val :=
  dot_S19x8192_S256x8192_S19x256_1_1_0_0_n_n.rhsIdx_val_of_single rfl i q

/-- The matrix product of the two tiles (narrowed to bf16, into the zero accumulator) at `(k, cc)`, given what the
    tiles hold at `(k, j)` and `(cc, j)`. -/
theorem tile_product (p : FVec Ideal S19x8192 .f32) (f : FVec Ideal S256x8192 .f32) (P Q : Fin 8192 → EReal)
    (k : Fin 19) (cc : Fin 256) (hp : ∀ j : Fin 8192, p (ix2 k j) = P j) (hf : ∀ j : Fin 8192, f (ix2 cc j) = Q j) :
    matmul dot_S19x8192_S256x8192_S19x256_1_1_0_0_n_n none (truncf .bf16 p bitsLt_bf16_f32) (truncf .bf16 f bitsLt_bf16_f32)
        (constant S19x256 .f32 0x00000000#32) (ix2 k cc) = ∑ j : Fin 8192, P j * Q j := by
  refine (Ideal.matmul_constant_zero_apply dot_S19x8192_S256x8192_S19x256_1_1_0_0_n_n none _ _ (ix2 k cc)).trans ?_
  rw [← Equiv.sum_comp (contrEquiv1 dot_S19x8192_S256x8192_S19x256_1_1_0_0_n_n 8192 rfl rfl).symm]
  refine Finset.sum_congr rfl fun j _ => ?_
  have hj := contrEquiv1_symm_val dot_S19x8192_S256x8192_S19x256_1_1_0_0_n_n 8192 rfl rfl j
  have el : dot_S19x8192_S256x8192_S19x256_1_1_0_0_n_n.lhsIdx (ix2 k cc) ((contrEquiv1 dot_S19x8192_S256x8192_S19x256_1_1_0_0_n_n 8192 rfl rfl).symm j) = ix2 k j := funext fun a => Fin.ext (by
    match a with
    | ⟨0, _⟩ => exact lhs_coord0 _ _
    | ⟨1, _⟩ => exact (lhs_coord1 _ _).trans hj)
  have er : dot_S19x8192_S256x8192_S19x256_1_1_0_0_n_n.rhsIdx (ix2 k cc) ((contrEquiv1 dot_S19x8192_S256x8192_S19x256_1_1_0_0_n_n 8192 rfl rfl).symm j) = ix2 cc j := funext fun a => Fin.ext (by
    match a with
    | ⟨0, _⟩ => exact rhs_coord0 _ _
    | ⟨1, _⟩ => exact (rhs_coord1 _ _).trans hj)
  rw [el, er]
  show p (ix2 k j) * f (ix2 cc j) = _
  rw [hp j, hf j]

/-- The row sums of the mask tile, laid out as a [19, 1] column, at class `k`. -/
theorem tile_rowsum (p : FVec Ideal S19x8192 .f32) (P : Fin 8192 → EReal) (k : Fin 19) (z : Fin 1)
    (hp : ∀ j : Fin 8192, p (ix2 k j) = P j) :
    shapeCast S19x1 (multiReduction .add [1] S19 p 0x00000000#32 reduces_S19x8192_S19 (.inl rfl) rfl) shapeCasts_S19_S19x1 (ix2 k z)
      = ∑ j : Fin 8192, P j := by
  refine (shapeCast_apply _ shapeCasts_S19_S19x1 (ix2 k z) (ix1 k) (by
    rw [Shape.rowMajor_val_one, Shape.rowMajor_val_two]
    have hz : z.val = 0 := by omega
    show k.val = k.val * 1 + z.val
    omega)).trans ?_
  refine (Ideal.multiReduction_add_single p _ reduces_S19x8192_S19 (.inl rfl) rfl (ix1 k)).trans ?_
  refine Finset.sum_congr rfl fun j _ => ?_
  refine Eq.trans (congrArg p (funext fun a => Fin.ext (by
    match a with
    | ⟨0, _⟩ => rfl
    | ⟨1, _⟩ => rfl))) (hp j)

/-! ## Region 0's payloads -/

/-- The weighted-sum payload at class `k`, channel `cc`: the block found there plus the sum over the tile's 8192
    positions of mask times feature (the two narrowings to bf16 are the identity on extended reals, and the matrix
    product into the zero accumulator is the plain sum). -/
theorem pay4_0_apply (x0 : Vec Ideal S1x19x8192 .f32) (x1 : Vec Ideal S1x256x8192 .f32) (xo : Vec Ideal S1x19x256 .f32)
    (u : Fin 1) (k : Fin 19) (cc : Fin 256) :
    k0_pay4 x0 x1 xo (ix3 u k cc) = xo (ix3 (0 : Fin 1) k cc) + ∑ j : Fin 8192, x0 (ix3 (0 : Fin 1) k j) * x1 (ix3 (0 : Fin 1) cc j) := by
  unfold k0_pay4 k0_pay3
  refine (shapeCast_ab_1ab_apply _ _ u k cc).trans ?_
  refine congrArg₂ (· + ·) (shapeCast_1ab_ab_apply xo _ k cc) ?_
  exact tile_product (shapeCast S19x8192 x0 shapeCasts_S1x19x8192_S19x8192) (shapeCast S256x8192 x1 shapeCasts_S1x256x8192_S256x8192)
    (fun j => x0 (ix3 (0 : Fin 1) k j)) (fun j => x1 (ix3 (0 : Fin 1) cc j)) k cc
    (fun j => shapeCast_1ab_ab_apply x0 _ k j) (fun j => shapeCast_1ab_ab_apply x1 _ cc j)

/-- The class-mass payload at class `k`: the block found there plus the sum of the mask tile's row `k`. -/
theorem pay5_0_apply (x0 : Vec Ideal S1x19x8192 .f32) (xo : Vec Ideal S1x19x1 .f32) (u : Fin 1) (k : Fin 19) (z : Fin 1) :
    k0_pay5 x0 xo (ix3 u k z) = xo (ix3 (0 : Fin 1) k z) + ∑ j : Fin 8192, x0 (ix3 (0 : Fin 1) k j) := by
  unfold k0_pay5 k0_pay3
  refine (shapeCast_ab_1ab_apply _ _ u k z).trans ?_
  refine congrArg₂ (· + ·) (shapeCast_1ab_ab_apply xo _ k z) ?_
  exact tile_rowsum (shapeCast S19x8192 x0 shapeCasts_S1x19x8192_S19x8192) (fun j => x0 (ix3 (0 : Fin 1) k j)) k z
    (fun j => shapeCast_1ab_ab_apply x0 _ k j)

/-- The zero blocks the first point stores. -/
theorem pay1_0_apply (i : S1x19x256.Idx) : (k0_pay1 (F := Ideal)) i = 0 := by
  unfold k0_pay1
  show Ideal.ofBits .f32 0x00000000#32 = 0
  exact Ideal.ofBits_zero_f32
theorem pay2_0_apply (i : S1x19x1.Idx) : (k0_pay2 (F := Ideal)) i = 0 := by
  unfold k0_pay2
  show Ideal.ofBits .f32 0x00000000#32 = 0
  exact Ideal.ofBits_zero_f32

/-! ## Region 1's payloads -/

/-- The weighted-sum payload at class `k`, channel `cc`: the block found there plus the sum over the tile's 8192
    positions of mask times feature (the two narrowings to bf16 are the identity on extended reals, and the matrix
    product into the zero accumulator is the plain sum). -/
theorem pay4_1_apply (x0 : Vec Ideal S1x19x8192 .f32) (x1 : Vec Ideal S1x256x8192 .f32) (xo : Vec Ideal S1x19x256 .f32)
    (u : Fin 1) (k : Fin 19) (cc : Fin 256) :
    k1_pay4 x0 x1 xo (ix3 u k cc) = xo (ix3 (0 : Fin 1) k cc) + ∑ j : Fin 8192, x0 (ix3 (0 : Fin 1) k j) * x1 (ix3 (0 : Fin 1) cc j) := by
  unfold k1_pay4 k1_pay3
  refine (shapeCast_ab_1ab_apply _ _ u k cc).trans ?_
  refine congrArg₂ (· + ·) (shapeCast_1ab_ab_apply xo _ k cc) ?_
  exact tile_product (shapeCast S19x8192 x0 shapeCasts_S1x19x8192_S19x8192) (shapeCast S256x8192 x1 shapeCasts_S1x256x8192_S256x8192)
    (fun j => x0 (ix3 (0 : Fin 1) k j)) (fun j => x1 (ix3 (0 : Fin 1) cc j)) k cc
    (fun j => shapeCast_1ab_ab_apply x0 _ k j) (fun j => shapeCast_1ab_ab_apply x1 _ cc j)

/-- The class-mass payload at class `k`: the block found there plus the sum of the mask tile's row `k`. -/
theorem pay5_1_apply (x0 : Vec Ideal S1x19x8192 .f32) (xo : Vec Ideal S1x19x1 .f32) (u : Fin 1) (k : Fin 19) (z : Fin 1) :
    k1_pay5 x0 xo (ix3 u k z) = xo (ix3 (0 : Fin 1) k z) + ∑ j : Fin 8192, x0 (ix3 (0 : Fin 1) k j) := by
  unfold k1_pay5 k1_pay3
  refine (shapeCast_ab_1ab_apply _ _ u k z).trans ?_
  refine congrArg₂ (· + ·) (shapeCast_1ab_ab_apply xo _ k z) ?_
  exact tile_rowsum (shapeCast S19x8192 x0 shapeCasts_S1x19x8192_S19x8192) (fun j => x0 (ix3 (0 : Fin 1) k j)) k z
    (fun j => shapeCast_1ab_ab_apply x0 _ k j)

/-- The zero blocks the first point stores. -/
theorem pay1_1_apply (i : S1x19x256.Idx) : (k1_pay1 (F := Ideal)) i = 0 := by
  unfold k1_pay1
  show Ideal.ofBits .f32 0x00000000#32 = 0
  exact Ideal.ofBits_zero_f32
theorem pay2_1_apply (i : S1x19x1.Idx) : (k1_pay2 (F := Ideal)) i = 0 := by
  unfold k1_pay2
  show Ideal.ofBits .f32 0x00000000#32 = 0
  exact Ideal.ofBits_zero_f32

end Cert.KernelIdeal.Whole

end
-- ==== Proof.Spec.lean ====
/-
  The two arrays each region leaves, as functions of the mask array `P` [8, 19, 16384] and the feature array `Q`
  [8, 256, 16384] it reads: the weighted sums `∑ₙ P b k n · Q b c n` and the class masses `∑ₙ P b k n` over all
  16384 positions. The kernel walks the positions in two tiles of 8192 and adds the second tile's partial sum to the
  first's, which started from zero; addition of extended reals is associative and commutative, so the two partial
  sums add up to the whole sum (no finiteness is needed for this).
-/
import proofs.«117822_j8675833938581_1_alg».proof.KernelIdeal
import Idealize.ShloMosaic.PureOps.Ideal
import Idealize.ShloMosaic.Lib.ValueIdx

noncomputable section

namespace Cert.KernelIdeal.Whole

open Cert.KernelIdeal Idealize.ShloMosaic Idealize.ShloMosaic.ValueIdx

/-- Position `j` of the first tile. -/
abbrev lo (j : Fin 8192) : Fin 16384 := ⟨j.val, by omega⟩
/-- Position `j` of the second tile. -/
abbrev hi (j : Fin 8192) : Fin 16384 := ⟨8192 + j.val, by omega⟩

/-- A sum over the 16384 positions is the sum over the first tile plus the sum over the second. -/
theorem sum_tiles (f : Fin 16384 → EReal) : ∑ n : Fin 16384, f n = (∑ j : Fin 8192, f (lo j)) + ∑ j : Fin 8192, f (hi j) :=
  Fin.sum_univ_add (a := 8192) (b := 8192) f

/-- The class-weighted sums of the features. -/
def weighted (P : S8x19x16384.Idx → EReal) (Q : S8x256x16384.Idx → EReal) : S8x19x256.Idx → EReal :=
  fun i => ∑ n : Fin 16384, P (ix3 (i 0 : Fin 8) (i 1 : Fin 19) n) * Q (ix3 (i 0 : Fin 8) (i 2 : Fin 256) n)

/-- The class masses. -/
def mass (P : S8x19x16384.Idx → EReal) : S8x19x1.Idx → EReal :=
  fun i => ∑ n : Fin 16384, P (ix3 (i 0 : Fin 8) (i 1 : Fin 19) n)

theorem weighted_apply (P : S8x19x16384.Idx → EReal) (Q : S8x256x16384.Idx → EReal) (i : S8x19x256.Idx) :
    weighted P Q i = ∑ n : Fin 16384, P (ix3 (i 0 : Fin 8) (i 1 : Fin 19) n) * Q (ix3 (i 0 : Fin 8) (i 2 : Fin 256) n) := rfl
theorem mass_apply (P : S8x19x16384.Idx → EReal) (i : S8x19x1.Idx) :
    mass P i = ∑ n : Fin 16384, P (ix3 (i 0 : Fin 8) (i 1 : Fin 19) n) := rfl

/-- Zero, plus the first tile's partial weighted sum, plus the second tile's, is the whole weighted sum. -/
theorem weighted_tiles (P : S8x19x16384.Idx → EReal) (Q : S8x256x16384.Idx → EReal) (b : Fin 8) (k : Fin 19) (cc : Fin 256) :
    ((0 : EReal) + ∑ j : Fin 8192, P (ix3 b k (lo j)) * Q (ix3 b cc (lo j))) + ∑ j : Fin 8192, P (ix3 b k (hi j)) * Q (ix3 b cc (hi j))
      = weighted P Q (ix3 b k cc) := by
  rw [zero_add]
  exact (sum_tiles fun n => P (ix3 b k n) * Q (ix3 b cc n)).symm

/-- The same for the class masses. -/
theorem mass_tiles (P : S8x19x16384.Idx → EReal) (b : Fin 8) (k : Fin 19) (z : Fin 1) :
    ((0 : EReal) + ∑ j : Fin 8192, P (ix3 b k (lo j))) + ∑ j : Fin 8192, P (ix3 b k (hi j)) = mass P (ix3 b k z) := by
  rw [zero_add]
  exact (sum_tiles fun n => P (ix3 b k n)).symm

-- From here on the two sums are opaque to definitional unfolding: every later use goes through the lemmas above.
attribute [irreducible] weighted mass

end Cert.KernelIdeal.Whole

end
-- ==== Proof.Region.lean ====
/-
  What each region leaves in its two output arrays. A region walks a grid of 8 batches × 2 position tiles; the two
  points of a batch share one output block (batch, all classes, all channels — or the one mass column), zeroed at the
  first point, added to at both, and written back after the second. So the weighted-sum array ends holding, at
  (b, k, c), the sum over both tiles of mask × feature — the whole weighted sum — and the class-mass array the whole
  class mass, as functions of the two arrays the region reads, whatever those hold.
-/
import proofs.«117822_j8675833938581_1_alg».proof.Proof.Gen.KernelIdeal.Frame
import proofs.«117822_j8675833938581_1_alg».proof.Proof.Body
import proofs.«117822_j8675833938581_1_alg».proof.Proof.Payload
import proofs.«117822_j8675833938581_1_alg».proof.Proof.Spec
import Idealize.ShloMosaic.Lib.Pipeline.Value
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

/-! ## Region 0 -/

section Region0

/-- One output block over a pair of grid points, weighted sums: the first point starts from the zero block and adds
    the first tile's products, the second adds the second tile's; together the whole sum at the block's batch `b`. -/
theorem point_weighted0 (P : S8x19x16384.Idx → EReal) (Q : S8x256x16384.Idx → EReal)
    (x0 x0' : Vec Ideal S1x19x8192 .f32) (x1 x1' : Vec Ideal S1x256x8192 .f32) (b : Fin 8)
    (h0 : ∀ (k : Fin 19) (j : Fin 8192), x0 (ix3 (0 : Fin 1) k j) = P (ix3 b k (lo j)))
    (h1 : ∀ (cc : Fin 256) (j : Fin 8192), x1 (ix3 (0 : Fin 1) cc j) = Q (ix3 b cc (lo j)))
    (h0' : ∀ (k : Fin 19) (j : Fin 8192), x0' (ix3 (0 : Fin 1) k j) = P (ix3 b k (hi j)))
    (h1' : ∀ (cc : Fin 256) (j : Fin 8192), x1' (ix3 (0 : Fin 1) cc j) = Q (ix3 b cc (hi j)))
    (y : S1x19x256.Idx) (i : S8x19x256.Idx) (hi0 : (i 0).val = b.val) (hi1 : (i 1).val = (y 1).val) (hi2 : (i 2).val = (y 2).val) :
    k0_pay4 x0' x1' (k0_pay4 x0 x1 (k0_pay1 (F := Ideal))) y = weighted P Q i := by
  obtain ⟨u, k, cc, rfl⟩ : ∃ (u : Fin 1) (k : Fin 19) (cc : Fin 256), y = ix3 u k cc := ⟨y 0, y 1, y 2, eq_ix3 y⟩
  have ei : i = ix3 b k cc := funext fun a => Fin.ext (by
    match a with
    | ⟨0, _⟩ => exact hi0
    | ⟨1, _⟩ => exact hi1
    | ⟨2, _⟩ => exact hi2)
  rw [ei, pay4_0_apply, pay4_0_apply, pay1_0_apply, ← weighted_tiles]
  simp only [h0, h1, h0', h1']

/-- The same for the class masses. -/
theorem point_mass0 (P : S8x19x16384.Idx → EReal) (x0 x0' : Vec Ideal S1x19x8192 .f32) (b : Fin 8)
    (h0 : ∀ (k : Fin 19) (j : Fin 8192), x0 (ix3 (0 : Fin 1) k j) = P (ix3 b k (lo j)))
    (h0' : ∀ (k : Fin 19) (j : Fin 8192), x0' (ix3 (0 : Fin 1) k j) = P (ix3 b k (hi j)))
    (y : S1x19x1.Idx) (i : S8x19x1.Idx) (hi0 : (i 0).val = b.val) (hi1 : (i 1).val = (y 1).val) :
    k0_pay5 x0' (k0_pay5 x0 (k0_pay2 (F := Ideal))) y = mass P i := by
  obtain ⟨u, k, z, rfl⟩ : ∃ (u : Fin 1) (k : Fin 19) (z : Fin 1), y = ix3 u k z := ⟨y 0, y 1, y 2, eq_ix3 y⟩
  have ei : i = ix3 b k z := funext fun a => Fin.ext (by
    match a with
    | ⟨0, _⟩ => exact hi0
    | ⟨1, _⟩ => exact hi1
    | ⟨2, _⟩ => have h2 : (i 2).val < 1 := (i 2).isLt; have hz : z.val < 1 := z.isLt; show (i 2).val = z.val; omega)
  rw [ei, pay5_0_apply, pay5_0_apply, pay2_0_apply, ← mass_tiles P b k z]
  simp only [h0, h0']

variable (V : (c : Dev nD) → (b : Ref sig .tc) → Buf (Elt Ideal) ((c : Thread nD τ).loc b))

/-- What the two output blocks hold after an odd point `n + 1`: the accumulating case over the first-point case. -/
theorem outs_odd0 (c : Dev nD) (n : ℕ) (hn : n + 1 < cfg0.N) (he : n % 2 = 0) :
    outsAt0 V c (n + 1) hn
      = (k0_pay4 (iblk0 V c 0 ⟨n + 1, hn⟩) (iblk0 V c 1 ⟨n + 1, hn⟩) (k0_pay4 (iblk0 V c 0 ⟨n, Nat.lt_of_succ_lt hn⟩) (iblk0 V c 1 ⟨n, Nat.lt_of_succ_lt hn⟩) (k0_pay1 (F := Ideal))),
         k0_pay5 (iblk0 V c 0 ⟨n + 1, hn⟩) (k0_pay5 (iblk0 V c 0 ⟨n, Nat.lt_of_succ_lt hn⟩) (k0_pay2 (F := Ideal)))) := by
  have hB : ¬(⟨n + 1, hn⟩ : Fin cfg0.N).val % 2 = 0 := by dsimp only; omega
  have hA : (⟨n, Nat.lt_of_succ_lt hn⟩ : Fin cfg0.N).val % 2 = 0 := he
  have eA := outsAt0_A V c ⟨n, Nat.lt_of_succ_lt hn⟩ hA
  have e2 := out0_A_2_eq (F := Ideal) c (grid0.coords ⟨n, Nat.lt_of_succ_lt hn⟩) (ms0_0 ⟨n, Nat.lt_of_succ_lt hn⟩) (hs0_0 ⟨n, Nat.lt_of_succ_lt hn⟩) (ms0_1 ⟨n, Nat.lt_of_succ_lt hn⟩) (hs0_1 ⟨n, Nat.lt_of_succ_lt hn⟩) (ms0_2 ⟨n, Nat.lt_of_succ_lt hn⟩) (hs0_2 ⟨n, Nat.lt_of_succ_lt hn⟩) (ms0_3 ⟨n, Nat.lt_of_succ_lt hn⟩) (hs0_3 ⟨n, Nat.lt_of_succ_lt hn⟩) ((hcond0_0 ⟨n, Nat.lt_of_succ_lt hn⟩).mpr hA) (iblk0 V c 0 ⟨n, Nat.lt_of_succ_lt hn⟩) (iblk0 V c 1 ⟨n, Nat.lt_of_succ_lt hn⟩)
  have e3 := out0_A_3_eq (F := Ideal) c (grid0.coords ⟨n, Nat.lt_of_succ_lt hn⟩) (ms0_0 ⟨n, Nat.lt_of_succ_lt hn⟩) (hs0_0 ⟨n, Nat.lt_of_succ_lt hn⟩) (ms0_1 ⟨n, Nat.lt_of_succ_lt hn⟩) (hs0_1 ⟨n, Nat.lt_of_succ_lt hn⟩) (ms0_2 ⟨n, Nat.lt_of_succ_lt hn⟩) (hs0_2 ⟨n, Nat.lt_of_succ_lt hn⟩) (ms0_3 ⟨n, Nat.lt_of_succ_lt hn⟩) (hs0_3 ⟨n, Nat.lt_of_succ_lt hn⟩) ((hcond0_0 ⟨n, Nat.lt_of_succ_lt hn⟩).mpr hA) (iblk0 V c 0 ⟨n, Nat.lt_of_succ_lt hn⟩) (iblk0 V c 1 ⟨n, Nat.lt_of_succ_lt hn⟩)
  have eA' : outsAt0 V c n (Nat.lt_of_succ_lt hn)
      = (k0_pay4 (iblk0 V c 0 ⟨n, Nat.lt_of_succ_lt hn⟩) (iblk0 V c 1 ⟨n, Nat.lt_of_succ_lt hn⟩) (k0_pay1 (F := Ideal)), k0_pay5 (iblk0 V c 0 ⟨n, Nat.lt_of_succ_lt hn⟩) (k0_pay2 (F := Ideal))) := by
    refine eA.trans ?_
    rw [e2, e3]
  have f2 := out0_B_2_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => hB ((hcond0_0 ⟨n + 1, hn⟩).mp h)) (iblk0 V c 0 ⟨n + 1, hn⟩) (iblk0 V c 1 ⟨n + 1, hn⟩)
    (outsAt0 V c n (Nat.lt_of_succ_lt hn)).1 (outsAt0 V c n (Nat.lt_of_succ_lt hn)).2
  have f3 := out0_B_3_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => hB ((hcond0_0 ⟨n + 1, hn⟩).mp h)) (iblk0 V c 0 ⟨n + 1, hn⟩) (iblk0 V c 1 ⟨n + 1, hn⟩)
    (outsAt0 V c n (Nat.lt_of_succ_lt hn)).1 (outsAt0 V c n (Nat.lt_of_succ_lt hn)).2
  refine (outsAt0_B V c ⟨n + 1, hn⟩ hB).trans ?_
  show (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => hB ((hcond0_0 ⟨n + 1, hn⟩).mp h)) (iblk0 V c 0 ⟨n + 1, hn⟩) (iblk0 V c 1 ⟨n + 1, hn⟩) (outsAt0 V c n (Nat.lt_of_succ_lt hn)).1 (outsAt0 V c n (Nat.lt_of_succ_lt hn)).2,
    out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => hB ((hcond0_0 ⟨n + 1, hn⟩).mp h)) (iblk0 V c 0 ⟨n + 1, hn⟩) (iblk0 V c 1 ⟨n + 1, hn⟩) (outsAt0 V c n (Nat.lt_of_succ_lt hn)).1 (outsAt0 V c n (Nat.lt_of_succ_lt hn)).2) = _
  rw [f2, f3, eA']

/-- The printed index maps over the grid of 8 batches × 2 tiles: the mask and feature windows are at block
    (batch, 0, tile), the two output windows at block (batch, 0, 0). -/
theorem idx_facts0 : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = t.val % 2
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-- The mask tile a point fetches, at `(0, k, j)`: the mask array at the point's batch and tile. -/
theorem iblk0_0_apply (c : Dev nD) (t : Fin cfg0.N) (k : Fin 19) (j : Fin 8192) (i : S8x19x16384.Idx)
    (hi0 : (i 0).val = t.val / 2) (hi1 : (i 1).val = k.val) (hi2 : (i 2).val = t.val % 2 * 8192 + j.val) :
    iblk0 V c 0 t (ix3 (0 : Fin 1) k j) = V c (Pipeline.arrRef spec0 0) i := by
  obtain ⟨e0, e1, e2, -⟩ := idx_facts0 t
  show V c (Pipeline.arrRef spec0 0) (((cfg0.win 0).blk t).view.emb (ix3 (0 : Fin 1) k j)) = _
  refine congrArg _ (funext fun a => Fin.ext ?_)
  match a with
  | ⟨0, _⟩ => show win0_0.index t (0 : Fin 3) * 1 + 1 * 0 = (i 0).val; omega
  | ⟨1, _⟩ => show win0_0.index t (1 : Fin 3) * 19 + 1 * k.val = (i 1).val; omega
  | ⟨2, _⟩ => show win0_0.index t (2 : Fin 3) * 8192 + 1 * j.val = (i 2).val; omega

/-- The feature tile a point fetches, at `(0, cc, j)`. -/
theorem iblk0_1_apply (c : Dev nD) (t : Fin cfg0.N) (cc : Fin 256) (j : Fin 8192) (i : S8x256x16384.Idx)
    (hi0 : (i 0).val = t.val / 2) (hi1 : (i 1).val = cc.val) (hi2 : (i 2).val = t.val % 2 * 8192 + j.val) :
    iblk0 V c 1 t (ix3 (0 : Fin 1) cc j) = V c (Pipeline.arrRef spec0 1) i := by
  obtain ⟨-, -, -, e0, e1, e2, -⟩ := idx_facts0 t
  show V c (Pipeline.arrRef spec0 1) (((cfg0.win 1).blk t).view.emb (ix3 (0 : Fin 1) cc j)) = _
  refine congrArg _ (funext fun a => Fin.ext ?_)
  match a with
  | ⟨0, _⟩ => show win0_1.index t (0 : Fin 3) * 1 + 1 * 0 = (i 0).val; omega
  | ⟨1, _⟩ => show win0_1.index t (1 : Fin 3) * 256 + 1 * cc.val = (i 1).val; omega
  | ⟨2, _⟩ => show win0_1.index t (2 : Fin 3) * 8192 + 1 * j.val = (i 2).val; omega

/-- What an odd point writes back to the weighted-sum array is its block of the whole weighted sums. -/
theorem flushed0_2_eq (c : Dev nD) (t : Fin cfg0.N) (hf : (cfg0.win 2).flush t = true) :
    (dat0 V c).flushed 2 t = ((cfg0.win 2).blk t).view.read (Elt Ideal)
      (weighted (V c (Pipeline.arrRef spec0 0)) (V c (Pipeline.arrRef spec0 1))) := by
  have hN : cfg0.N = 16 := N_0
  have hodd : t.val % 2 = 1 := (flush0_2 t).mp hf
  obtain ⟨n, hn, he, rfl⟩ : ∃ (n : ℕ) (hn : n + 1 < cfg0.N), n % 2 = 0 ∧ t = ⟨n + 1, hn⟩ :=
    ⟨t.val - 1, by have := t.isLt; omega, by omega, Fin.ext (by dsimp only; omega)⟩
  show (cfg0.win 2).cut (grid0.coords ⟨n + 1, hn⟩) ((dat0 V c).after 2 ⟨n + 1, hn⟩) = _
  rw [after0_2]
  show (cfg0.win 2).cut (grid0.coords ⟨n + 1, hn⟩) (outsAt0 V c (n + 1) hn).1 = _
  rw [outs_odd0 V c n hn he]
  obtain ⟨-, -, -, -, -, -, e0, e1, e2, -⟩ := idx_facts0 ⟨n + 1, hn⟩
  funext y
  have hy0 : (y 0).val < 1 := (y 0).isLt
  have hb : n / 2 < 8 := by omega
  have h0 : ∀ (k : Fin 19) (j : Fin 8192), iblk0 V c 0 ⟨n, Nat.lt_of_succ_lt hn⟩ (ix3 (0 : Fin 1) k j) = V c (Pipeline.arrRef spec0 0) (ix3 (⟨n / 2, hb⟩ : Fin 8) k (lo j)) :=
    fun k j => iblk0_0_apply V c ⟨n, Nat.lt_of_succ_lt hn⟩ k j (ix3 (⟨n / 2, hb⟩ : Fin 8) k (lo j)) rfl rfl (by show j.val = n % 2 * 8192 + j.val; omega)
  have h1 : ∀ (cc : Fin 256) (j : Fin 8192), iblk0 V c 1 ⟨n, Nat.lt_of_succ_lt hn⟩ (ix3 (0 : Fin 1) cc j) = V c (Pipeline.arrRef spec0 1) (ix3 (⟨n / 2, hb⟩ : Fin 8) cc (lo j)) :=
    fun cc j => iblk0_1_apply V c ⟨n, Nat.lt_of_succ_lt hn⟩ cc j (ix3 (⟨n / 2, hb⟩ : Fin 8) cc (lo j)) rfl rfl (by show j.val = n % 2 * 8192 + j.val; omega)
  have h0' : ∀ (k : Fin 19) (j : Fin 8192), iblk0 V c 0 ⟨n + 1, hn⟩ (ix3 (0 : Fin 1) k j) = V c (Pipeline.arrRef spec0 0) (ix3 (⟨n / 2, hb⟩ : Fin 8) k (hi j)) :=
    fun k j => iblk0_0_apply V c ⟨n + 1, hn⟩ k j (ix3 (⟨n / 2, hb⟩ : Fin 8) k (hi j)) (by show n / 2 = (n + 1) / 2; omega) rfl (by show 8192 + j.val = (n + 1) % 2 * 8192 + j.val; omega)
  have h1' : ∀ (cc : Fin 256) (j : Fin 8192), iblk0 V c 1 ⟨n + 1, hn⟩ (ix3 (0 : Fin 1) cc j) = V c (Pipeline.arrRef spec0 1) (ix3 (⟨n / 2, hb⟩ : Fin 8) cc (hi j)) :=
    fun cc j => iblk0_1_apply V c ⟨n + 1, hn⟩ cc j (ix3 (⟨n / 2, hb⟩ : Fin 8) cc (hi j)) (by show n / 2 = (n + 1) / 2; omega) rfl (by show 8192 + j.val = (n + 1) % 2 * 8192 + j.val; omega)
  rw [View.read_apply]
  show k0_pay4 (iblk0 V c 0 ⟨n + 1, hn⟩) (iblk0 V c 1 ⟨n + 1, hn⟩) (k0_pay4 (iblk0 V c 0 ⟨n, Nat.lt_of_succ_lt hn⟩) (iblk0 V c 1 ⟨n, Nat.lt_of_succ_lt hn⟩) (k0_pay1 (F := Ideal))) y
    = weighted (V c (Pipeline.arrRef spec0 0)) (V c (Pipeline.arrRef spec0 1)) (((cfg0.win 2).blk ⟨n + 1, hn⟩).view.emb y)
  refine point_weighted0 (V c (Pipeline.arrRef spec0 0)) (V c (Pipeline.arrRef spec0 1)) (iblk0 V c 0 ⟨n, Nat.lt_of_succ_lt hn⟩) (iblk0 V c 0 ⟨n + 1, hn⟩) (iblk0 V c 1 ⟨n, Nat.lt_of_succ_lt hn⟩) (iblk0 V c 1 ⟨n + 1, hn⟩) ⟨n / 2, hb⟩
    h0 h1 h0' h1' y (((cfg0.win 2).blk ⟨n + 1, hn⟩).view.emb y) ?_ ?_ ?_
  · show win0_2.index ⟨n + 1, hn⟩ (0 : Fin 3) * 1 + 1 * (y 0).val = n / 2
    have : (⟨n + 1, hn⟩ : Fin cfg0.N).val = n + 1 := rfl
    omega
  · show win0_2.index ⟨n + 1, hn⟩ (1 : Fin 3) * 19 + 1 * (y 1).val = (y 1).val; omega
  · show win0_2.index ⟨n + 1, hn⟩ (2 : Fin 3) * 256 + 1 * (y 2).val = (y 2).val; omega

/-- What an odd point writes back to the class-mass array is its block of the whole class masses. -/
theorem flushed0_3_eq (c : Dev nD) (t : Fin cfg0.N) (hf : (cfg0.win 3).flush t = true) :
    (dat0 V c).flushed 3 t = ((cfg0.win 3).blk t).view.read (Elt Ideal) (mass (V c (Pipeline.arrRef spec0 0))) := by
  have hN : cfg0.N = 16 := N_0
  have hodd : t.val % 2 = 1 := (flush0_3 t).mp hf
  obtain ⟨n, hn, he, rfl⟩ : ∃ (n : ℕ) (hn : n + 1 < cfg0.N), n % 2 = 0 ∧ t = ⟨n + 1, hn⟩ :=
    ⟨t.val - 1, by have := t.isLt; omega, by omega, Fin.ext (by dsimp only; omega)⟩
  show (cfg0.win 3).cut (grid0.coords ⟨n + 1, hn⟩) ((dat0 V c).after 3 ⟨n + 1, hn⟩) = _
  rw [after0_3]
  show (cfg0.win 3).cut (grid0.coords ⟨n + 1, hn⟩) (outsAt0 V c (n + 1) hn).2 = _
  rw [outs_odd0 V c n hn he]
  obtain ⟨-, -, -, -, -, -, -, -, -, e0, e1, e2⟩ := idx_facts0 ⟨n + 1, hn⟩
  funext y
  have hy0 : (y 0).val < 1 := (y 0).isLt
  have hb : n / 2 < 8 := by omega
  have h0 : ∀ (k : Fin 19) (j : Fin 8192), iblk0 V c 0 ⟨n, Nat.lt_of_succ_lt hn⟩ (ix3 (0 : Fin 1) k j) = V c (Pipeline.arrRef spec0 0) (ix3 (⟨n / 2, hb⟩ : Fin 8) k (lo j)) :=
    fun k j => iblk0_0_apply V c ⟨n, Nat.lt_of_succ_lt hn⟩ k j (ix3 (⟨n / 2, hb⟩ : Fin 8) k (lo j)) rfl rfl (by show j.val = n % 2 * 8192 + j.val; omega)
  have h0' : ∀ (k : Fin 19) (j : Fin 8192), iblk0 V c 0 ⟨n + 1, hn⟩ (ix3 (0 : Fin 1) k j) = V c (Pipeline.arrRef spec0 0) (ix3 (⟨n / 2, hb⟩ : Fin 8) k (hi j)) :=
    fun k j => iblk0_0_apply V c ⟨n + 1, hn⟩ k j (ix3 (⟨n / 2, hb⟩ : Fin 8) k (hi j)) (by show n / 2 = (n + 1) / 2; omega) rfl (by show 8192 + j.val = (n + 1) % 2 * 8192 + j.val; omega)
  rw [View.read_apply]
  show k0_pay5 (iblk0 V c 0 ⟨n + 1, hn⟩) (k0_pay5 (iblk0 V c 0 ⟨n, Nat.lt_of_succ_lt hn⟩) (k0_pay2 (F := Ideal))) y
    = mass (V c (Pipeline.arrRef spec0 0)) (((cfg0.win 3).blk ⟨n + 1, hn⟩).view.emb y)
  refine point_mass0 (V c (Pipeline.arrRef spec0 0)) (iblk0 V c 0 ⟨n, Nat.lt_of_succ_lt hn⟩) (iblk0 V c 0 ⟨n + 1, hn⟩) ⟨n / 2, hb⟩
    h0 h0' y (((cfg0.win 3).blk ⟨n + 1, hn⟩).view.emb y) ?_ ?_
  · show win0_3.index ⟨n + 1, hn⟩ (0 : Fin 3) * 1 + 1 * (y 0).val = n / 2
    have : (⟨n + 1, hn⟩ : Fin cfg0.N).val = n + 1 := rfl
    omega
  · show win0_3.index ⟨n + 1, hn⟩ (1 : Fin 3) * 19 + 1 * (y 1).val = (y 1).val; omega

/-- An index of the weighted-sum array is in a point's block iff each coordinate is in the block's range. -/
theorem mem_blk0_2 (t : Fin cfg0.N) (i : S8x19x256.Idx) :
    i ∈ ((cfg0.win 2).blk t).view.set ↔ ∀ a : Fin 3, win0_2.index t a * S1x19x256.size a ≤ (i a).val ∧ (i a).val < win0_2.index t a * S1x19x256.size a + S1x19x256.size a := by
  show i ∈ ((View.whole main_v4_0).slice (win0_2.rect t)).set ↔ _
  rw [View.set_slice_whole, Rect.mem_set_unit]
  exact Iff.rfl
theorem mem_blk0_3 (t : Fin cfg0.N) (i : S8x19x1.Idx) :
    i ∈ ((cfg0.win 3).blk t).view.set ↔ ∀ a : Fin 3, win0_3.index t a * S1x19x1.size a ≤ (i a).val ∧ (i a).val < win0_3.index t a * S1x19x1.size a + S1x19x1.size a := by
  show i ∈ ((View.whole main_v4_1).slice (win0_3.rect t)).set ↔ _
  rw [View.set_slice_whole, Rect.mem_set_unit]
  exact Iff.rfl

/-- Batch `b`'s block is written back at point `2 b + 1`. -/
theorem covered0_2 (i : S8x19x256.Idx) : ∃ t : Fin cfg0.N, (cfg0.win 2).flush t = true ∧ i ∈ ((cfg0.win 2).blk t).view.set := by
  have hN : cfg0.N = 16 := N_0
  have h0 : (i 0).val < 8 := (i 0).isLt
  have h1 : (i 1).val < 19 := (i 1).isLt
  have h2 : (i 2).val < 256 := (i 2).isLt
  have ht : 2 * (i 0).val + 1 < cfg0.N := by omega
  obtain ⟨-, -, -, -, -, -, e0, e1, e2, -⟩ := idx_facts0 ⟨2 * (i 0).val + 1, ht⟩
  have ev : (⟨2 * (i 0).val + 1, ht⟩ : Fin cfg0.N).val = 2 * (i 0).val + 1 := rfl
  refine ⟨⟨2 * (i 0).val + 1, ht⟩, (flush0_2 _).mpr (by rw [ev]; omega), ?_⟩
  rw [mem_blk0_2]
  intro a
  match a with
  | ⟨0, _⟩ => show win0_2.index ⟨2 * (i 0).val + 1, ht⟩ (0 : Fin 3) * 1 ≤ (i 0).val ∧ (i 0).val < win0_2.index ⟨2 * (i 0).val + 1, ht⟩ (0 : Fin 3) * 1 + 1; omega
  | ⟨1, _⟩ => show win0_2.index ⟨2 * (i 0).val + 1, ht⟩ (1 : Fin 3) * 19 ≤ (i 1).val ∧ (i 1).val < win0_2.index ⟨2 * (i 0).val + 1, ht⟩ (1 : Fin 3) * 19 + 19; omega
  | ⟨2, _⟩ => show win0_2.index ⟨2 * (i 0).val + 1, ht⟩ (2 : Fin 3) * 256 ≤ (i 2).val ∧ (i 2).val < win0_2.index ⟨2 * (i 0).val + 1, ht⟩ (2 : Fin 3) * 256 + 256; omega
theorem covered0_3 (i : S8x19x1.Idx) : ∃ t : Fin cfg0.N, (cfg0.win 3).flush t = true ∧ i ∈ ((cfg0.win 3).blk t).view.set := by
  have hN : cfg0.N = 16 := N_0
  have h0 : (i 0).val < 8 := (i 0).isLt
  have h1 : (i 1).val < 19 := (i 1).isLt
  have h2 : (i 2).val < 1 := (i 2).isLt
  have ht : 2 * (i 0).val + 1 < cfg0.N := by omega
  obtain ⟨-, -, -, -, -, -, -, -, -, e0, e1, e2⟩ := idx_facts0 ⟨2 * (i 0).val + 1, ht⟩
  have ev : (⟨2 * (i 0).val + 1, ht⟩ : Fin cfg0.N).val = 2 * (i 0).val + 1 := rfl
  refine ⟨⟨2 * (i 0).val + 1, ht⟩, (flush0_3 _).mpr (by rw [ev]; omega), ?_⟩
  rw [mem_blk0_3]
  intro a
  match a with
  | ⟨0, _⟩ => show win0_3.index ⟨2 * (i 0).val + 1, ht⟩ (0 : Fin 3) * 1 ≤ (i 0).val ∧ (i 0).val < win0_3.index ⟨2 * (i 0).val + 1, ht⟩ (0 : Fin 3) * 1 + 1; omega
  | ⟨1, _⟩ => show win0_3.index ⟨2 * (i 0).val + 1, ht⟩ (1 : Fin 3) * 19 ≤ (i 1).val ∧ (i 1).val < win0_3.index ⟨2 * (i 0).val + 1, ht⟩ (1 : Fin 3) * 19 + 19; omega
  | ⟨2, _⟩ => show win0_3.index ⟨2 * (i 0).val + 1, ht⟩ (2 : Fin 3) * 1 ≤ (i 2).val ∧ (i 2).val < win0_3.index ⟨2 * (i 0).val + 1, ht⟩ (2 : Fin 3) * 1 + 1; omega

/-- After the region, the weighted-sum array holds the weighted sums of the region's two input arrays … -/
theorem final0_2 (c : Dev nD) : (dat0 V c).arrAt 2 cfg0.N
    = weighted (V c (Pipeline.arrRef spec0 0)) (V c (Pipeline.arrRef spec0 1)) :=
  (dat0 V c).arrAt_eq_of_cover 2 _ (flushed0_2_eq V c) covered0_2
/-- … and the class-mass array the class masses of its mask array. -/
theorem final0_3 (c : Dev nD) : (dat0 V c).arrAt 3 cfg0.N = mass (V c (Pipeline.arrRef spec0 0)) :=
  (dat0 V c).arrAt_eq_of_cover 3 _ (flushed0_3_eq V c) covered0_3

end Region0

/-! ## Region 1 -/

section Region1

/-- One output block over a pair of grid points, weighted sums: the first point starts from the zero block and adds
    the first tile's products, the second adds the second tile's; together the whole sum at the block's batch `b`. -/
theorem point_weighted1 (P : S8x19x16384.Idx → EReal) (Q : S8x256x16384.Idx → EReal)
    (x0 x0' : Vec Ideal S1x19x8192 .f32) (x1 x1' : Vec Ideal S1x256x8192 .f32) (b : Fin 8)
    (h0 : ∀ (k : Fin 19) (j : Fin 8192), x0 (ix3 (0 : Fin 1) k j) = P (ix3 b k (lo j)))
    (h1 : ∀ (cc : Fin 256) (j : Fin 8192), x1 (ix3 (0 : Fin 1) cc j) = Q (ix3 b cc (lo j)))
    (h0' : ∀ (k : Fin 19) (j : Fin 8192), x0' (ix3 (0 : Fin 1) k j) = P (ix3 b k (hi j)))
    (h1' : ∀ (cc : Fin 256) (j : Fin 8192), x1' (ix3 (0 : Fin 1) cc j) = Q (ix3 b cc (hi j)))
    (y : S1x19x256.Idx) (i : S8x19x256.Idx) (hi0 : (i 0).val = b.val) (hi1 : (i 1).val = (y 1).val) (hi2 : (i 2).val = (y 2).val) :
    k1_pay4 x0' x1' (k1_pay4 x0 x1 (k1_pay1 (F := Ideal))) y = weighted P Q i := by
  obtain ⟨u, k, cc, rfl⟩ : ∃ (u : Fin 1) (k : Fin 19) (cc : Fin 256), y = ix3 u k cc := ⟨y 0, y 1, y 2, eq_ix3 y⟩
  have ei : i = ix3 b k cc := funext fun a => Fin.ext (by
    match a with
    | ⟨0, _⟩ => exact hi0
    | ⟨1, _⟩ => exact hi1
    | ⟨2, _⟩ => exact hi2)
  rw [ei, pay4_1_apply, pay4_1_apply, pay1_1_apply, ← weighted_tiles]
  simp only [h0, h1, h0', h1']

/-- The same for the class masses. -/
theorem point_mass1 (P : S8x19x16384.Idx → EReal) (x0 x0' : Vec Ideal S1x19x8192 .f32) (b : Fin 8)
    (h0 : ∀ (k : Fin 19) (j : Fin 8192), x0 (ix3 (0 : Fin 1) k j) = P (ix3 b k (lo j)))
    (h0' : ∀ (k : Fin 19) (j : Fin 8192), x0' (ix3 (0 : Fin 1) k j) = P (ix3 b k (hi j)))
    (y : S1x19x1.Idx) (i : S8x19x1.Idx) (hi0 : (i 0).val = b.val) (hi1 : (i 1).val = (y 1).val) :
    k1_pay5 x0' (k1_pay5 x0 (k1_pay2 (F := Ideal))) y = mass P i := by
  obtain ⟨u, k, z, rfl⟩ : ∃ (u : Fin 1) (k : Fin 19) (z : Fin 1), y = ix3 u k z := ⟨y 0, y 1, y 2, eq_ix3 y⟩
  have ei : i = ix3 b k z := funext fun a => Fin.ext (by
    match a with
    | ⟨0, _⟩ => exact hi0
    | ⟨1, _⟩ => exact hi1
    | ⟨2, _⟩ => have h2 : (i 2).val < 1 := (i 2).isLt; have hz : z.val < 1 := z.isLt; show (i 2).val = z.val; omega)
  rw [ei, pay5_1_apply, pay5_1_apply, pay2_1_apply, ← mass_tiles P b k z]
  simp only [h0, h0']

variable (V : (c : Dev nD) → (b : Ref sig .tc) → Buf (Elt Ideal) ((c : Thread nD τ).loc b))

/-- What the two output blocks hold after an odd point `n + 1`: the accumulating case over the first-point case. -/
theorem outs_odd1 (c : Dev nD) (n : ℕ) (hn : n + 1 < cfg1.N) (he : n % 2 = 0) :
    outsAt1 V c (n + 1) hn
      = (k1_pay4 (iblk1 V c 0 ⟨n + 1, hn⟩) (iblk1 V c 1 ⟨n + 1, hn⟩) (k1_pay4 (iblk1 V c 0 ⟨n, Nat.lt_of_succ_lt hn⟩) (iblk1 V c 1 ⟨n, Nat.lt_of_succ_lt hn⟩) (k1_pay1 (F := Ideal))),
         k1_pay5 (iblk1 V c 0 ⟨n + 1, hn⟩) (k1_pay5 (iblk1 V c 0 ⟨n, Nat.lt_of_succ_lt hn⟩) (k1_pay2 (F := Ideal)))) := by
  have hB : ¬(⟨n + 1, hn⟩ : Fin cfg1.N).val % 2 = 0 := by dsimp only; omega
  have hA : (⟨n, Nat.lt_of_succ_lt hn⟩ : Fin cfg1.N).val % 2 = 0 := he
  have eA := outsAt1_A V c ⟨n, Nat.lt_of_succ_lt hn⟩ hA
  have e2 := out1_A_2_eq (F := Ideal) c (grid1.coords ⟨n, Nat.lt_of_succ_lt hn⟩) (ms1_0 ⟨n, Nat.lt_of_succ_lt hn⟩) (hs1_0 ⟨n, Nat.lt_of_succ_lt hn⟩) (ms1_1 ⟨n, Nat.lt_of_succ_lt hn⟩) (hs1_1 ⟨n, Nat.lt_of_succ_lt hn⟩) (ms1_2 ⟨n, Nat.lt_of_succ_lt hn⟩) (hs1_2 ⟨n, Nat.lt_of_succ_lt hn⟩) (ms1_3 ⟨n, Nat.lt_of_succ_lt hn⟩) (hs1_3 ⟨n, Nat.lt_of_succ_lt hn⟩) ((hcond1_0 ⟨n, Nat.lt_of_succ_lt hn⟩).mpr hA) (iblk1 V c 0 ⟨n, Nat.lt_of_succ_lt hn⟩) (iblk1 V c 1 ⟨n, Nat.lt_of_succ_lt hn⟩)
  have e3 := out1_A_3_eq (F := Ideal) c (grid1.coords ⟨n, Nat.lt_of_succ_lt hn⟩) (ms1_0 ⟨n, Nat.lt_of_succ_lt hn⟩) (hs1_0 ⟨n, Nat.lt_of_succ_lt hn⟩) (ms1_1 ⟨n, Nat.lt_of_succ_lt hn⟩) (hs1_1 ⟨n, Nat.lt_of_succ_lt hn⟩) (ms1_2 ⟨n, Nat.lt_of_succ_lt hn⟩) (hs1_2 ⟨n, Nat.lt_of_succ_lt hn⟩) (ms1_3 ⟨n, Nat.lt_of_succ_lt hn⟩) (hs1_3 ⟨n, Nat.lt_of_succ_lt hn⟩) ((hcond1_0 ⟨n, Nat.lt_of_succ_lt hn⟩).mpr hA) (iblk1 V c 0 ⟨n, Nat.lt_of_succ_lt hn⟩) (iblk1 V c 1 ⟨n, Nat.lt_of_succ_lt hn⟩)
  have eA' : outsAt1 V c n (Nat.lt_of_succ_lt hn)
      = (k1_pay4 (iblk1 V c 0 ⟨n, Nat.lt_of_succ_lt hn⟩) (iblk1 V c 1 ⟨n, Nat.lt_of_succ_lt hn⟩) (k1_pay1 (F := Ideal)), k1_pay5 (iblk1 V c 0 ⟨n, Nat.lt_of_succ_lt hn⟩) (k1_pay2 (F := Ideal))) := by
    refine eA.trans ?_
    rw [e2, e3]
  have f2 := out1_B_2_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => hB ((hcond1_0 ⟨n + 1, hn⟩).mp h)) (iblk1 V c 0 ⟨n + 1, hn⟩) (iblk1 V c 1 ⟨n + 1, hn⟩)
    (outsAt1 V c n (Nat.lt_of_succ_lt hn)).1 (outsAt1 V c n (Nat.lt_of_succ_lt hn)).2
  have f3 := out1_B_3_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => hB ((hcond1_0 ⟨n + 1, hn⟩).mp h)) (iblk1 V c 0 ⟨n + 1, hn⟩) (iblk1 V c 1 ⟨n + 1, hn⟩)
    (outsAt1 V c n (Nat.lt_of_succ_lt hn)).1 (outsAt1 V c n (Nat.lt_of_succ_lt hn)).2
  refine (outsAt1_B V c ⟨n + 1, hn⟩ hB).trans ?_
  show (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => hB ((hcond1_0 ⟨n + 1, hn⟩).mp h)) (iblk1 V c 0 ⟨n + 1, hn⟩) (iblk1 V c 1 ⟨n + 1, hn⟩) (outsAt1 V c n (Nat.lt_of_succ_lt hn)).1 (outsAt1 V c n (Nat.lt_of_succ_lt hn)).2,
    out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => hB ((hcond1_0 ⟨n + 1, hn⟩).mp h)) (iblk1 V c 0 ⟨n + 1, hn⟩) (iblk1 V c 1 ⟨n + 1, hn⟩) (outsAt1 V c n (Nat.lt_of_succ_lt hn)).1 (outsAt1 V c n (Nat.lt_of_succ_lt hn)).2) = _
  rw [f2, f3, eA']

/-- The printed index maps over the grid of 8 batches × 2 tiles: the mask and feature windows are at block
    (batch, 0, tile), the two output windows at block (batch, 0, 0). -/
theorem idx_facts1 : ∀ t : Fin cfg1.N,
    win1_0.index t (0 : Fin 3) = t.val / 2 ∧ win1_0.index t (1 : Fin 3) = 0 ∧ win1_0.index t (2 : Fin 3) = t.val % 2
    ∧ win1_1.index t (0 : Fin 3) = t.val / 2 ∧ win1_1.index t (1 : Fin 3) = 0 ∧ win1_1.index t (2 : Fin 3) = t.val % 2
    ∧ win1_2.index t (0 : Fin 3) = t.val / 2 ∧ win1_2.index t (1 : Fin 3) = 0 ∧ win1_2.index t (2 : Fin 3) = 0
    ∧ win1_3.index t (0 : Fin 3) = t.val / 2 ∧ win1_3.index t (1 : Fin 3) = 0 ∧ win1_3.index t (2 : Fin 3) = 0 :=
  (by decide +kernel : ∀ t : Fin grid1.N, _)

/-- The mask tile a point fetches, at `(0, k, j)`: the mask array at the point's batch and tile. -/
theorem iblk1_0_apply (c : Dev nD) (t : Fin cfg1.N) (k : Fin 19) (j : Fin 8192) (i : S8x19x16384.Idx)
    (hi0 : (i 0).val = t.val / 2) (hi1 : (i 1).val = k.val) (hi2 : (i 2).val = t.val % 2 * 8192 + j.val) :
    iblk1 V c 0 t (ix3 (0 : Fin 1) k j) = V c (Pipeline.arrRef spec1 0) i := by
  obtain ⟨e0, e1, e2, -⟩ := idx_facts1 t
  show V c (Pipeline.arrRef spec1 0) (((cfg1.win 0).blk t).view.emb (ix3 (0 : Fin 1) k j)) = _
  refine congrArg _ (funext fun a => Fin.ext ?_)
  match a with
  | ⟨0, _⟩ => show win1_0.index t (0 : Fin 3) * 1 + 1 * 0 = (i 0).val; omega
  | ⟨1, _⟩ => show win1_0.index t (1 : Fin 3) * 19 + 1 * k.val = (i 1).val; omega
  | ⟨2, _⟩ => show win1_0.index t (2 : Fin 3) * 8192 + 1 * j.val = (i 2).val; omega

/-- The feature tile a point fetches, at `(0, cc, j)`. -/
theorem iblk1_1_apply (c : Dev nD) (t : Fin cfg1.N) (cc : Fin 256) (j : Fin 8192) (i : S8x256x16384.Idx)
    (hi0 : (i 0).val = t.val / 2) (hi1 : (i 1).val = cc.val) (hi2 : (i 2).val = t.val % 2 * 8192 + j.val) :
    iblk1 V c 1 t (ix3 (0 : Fin 1) cc j) = V c (Pipeline.arrRef spec1 1) i := by
  obtain ⟨-, -, -, e0, e1, e2, -⟩ := idx_facts1 t
  show V c (Pipeline.arrRef spec1 1) (((cfg1.win 1).blk t).view.emb (ix3 (0 : Fin 1) cc j)) = _
  refine congrArg _ (funext fun a => Fin.ext ?_)
  match a with
  | ⟨0, _⟩ => show win1_1.index t (0 : Fin 3) * 1 + 1 * 0 = (i 0).val; omega
  | ⟨1, _⟩ => show win1_1.index t (1 : Fin 3) * 256 + 1 * cc.val = (i 1).val; omega
  | ⟨2, _⟩ => show win1_1.index t (2 : Fin 3) * 8192 + 1 * j.val = (i 2).val; omega

/-- What an odd point writes back to the weighted-sum array is its block of the whole weighted sums. -/
theorem flushed1_2_eq (c : Dev nD) (t : Fin cfg1.N) (hf : (cfg1.win 2).flush t = true) :
    (dat1 V c).flushed 2 t = ((cfg1.win 2).blk t).view.read (Elt Ideal)
      (weighted (V c (Pipeline.arrRef spec1 0)) (V c (Pipeline.arrRef spec1 1))) := by
  have hN : cfg1.N = 16 := N_1
  have hodd : t.val % 2 = 1 := (flush1_2 t).mp hf
  obtain ⟨n, hn, he, rfl⟩ : ∃ (n : ℕ) (hn : n + 1 < cfg1.N), n % 2 = 0 ∧ t = ⟨n + 1, hn⟩ :=
    ⟨t.val - 1, by have := t.isLt; omega, by omega, Fin.ext (by dsimp only; omega)⟩
  show (cfg1.win 2).cut (grid1.coords ⟨n + 1, hn⟩) ((dat1 V c).after 2 ⟨n + 1, hn⟩) = _
  rw [after1_2]
  show (cfg1.win 2).cut (grid1.coords ⟨n + 1, hn⟩) (outsAt1 V c (n + 1) hn).1 = _
  rw [outs_odd1 V c n hn he]
  obtain ⟨-, -, -, -, -, -, e0, e1, e2, -⟩ := idx_facts1 ⟨n + 1, hn⟩
  funext y
  have hy0 : (y 0).val < 1 := (y 0).isLt
  have hb : n / 2 < 8 := by omega
  have h0 : ∀ (k : Fin 19) (j : Fin 8192), iblk1 V c 0 ⟨n, Nat.lt_of_succ_lt hn⟩ (ix3 (0 : Fin 1) k j) = V c (Pipeline.arrRef spec1 0) (ix3 (⟨n / 2, hb⟩ : Fin 8) k (lo j)) :=
    fun k j => iblk1_0_apply V c ⟨n, Nat.lt_of_succ_lt hn⟩ k j (ix3 (⟨n / 2, hb⟩ : Fin 8) k (lo j)) rfl rfl (by show j.val = n % 2 * 8192 + j.val; omega)
  have h1 : ∀ (cc : Fin 256) (j : Fin 8192), iblk1 V c 1 ⟨n, Nat.lt_of_succ_lt hn⟩ (ix3 (0 : Fin 1) cc j) = V c (Pipeline.arrRef spec1 1) (ix3 (⟨n / 2, hb⟩ : Fin 8) cc (lo j)) :=
    fun cc j => iblk1_1_apply V c ⟨n, Nat.lt_of_succ_lt hn⟩ cc j (ix3 (⟨n / 2, hb⟩ : Fin 8) cc (lo j)) rfl rfl (by show j.val = n % 2 * 8192 + j.val; omega)
  have h0' : ∀ (k : Fin 19) (j : Fin 8192), iblk1 V c 0 ⟨n + 1, hn⟩ (ix3 (0 : Fin 1) k j) = V c (Pipeline.arrRef spec1 0) (ix3 (⟨n / 2, hb⟩ : Fin 8) k (hi j)) :=
    fun k j => iblk1_0_apply V c ⟨n + 1, hn⟩ k j (ix3 (⟨n / 2, hb⟩ : Fin 8) k (hi j)) (by show n / 2 = (n + 1) / 2; omega) rfl (by show 8192 + j.val = (n + 1) % 2 * 8192 + j.val; omega)
  have h1' : ∀ (cc : Fin 256) (j : Fin 8192), iblk1 V c 1 ⟨n + 1, hn⟩ (ix3 (0 : Fin 1) cc j) = V c (Pipeline.arrRef spec1 1) (ix3 (⟨n / 2, hb⟩ : Fin 8) cc (hi j)) :=
    fun cc j => iblk1_1_apply V c ⟨n + 1, hn⟩ cc j (ix3 (⟨n / 2, hb⟩ : Fin 8) cc (hi j)) (by show n / 2 = (n + 1) / 2; omega) rfl (by show 8192 + j.val = (n + 1) % 2 * 8192 + j.val; omega)
  rw [View.read_apply]
  show k1_pay4 (iblk1 V c 0 ⟨n + 1, hn⟩) (iblk1 V c 1 ⟨n + 1, hn⟩) (k1_pay4 (iblk1 V c 0 ⟨n, Nat.lt_of_succ_lt hn⟩) (iblk1 V c 1 ⟨n, Nat.lt_of_succ_lt hn⟩) (k1_pay1 (F := Ideal))) y
    = weighted (V c (Pipeline.arrRef spec1 0)) (V c (Pipeline.arrRef spec1 1)) (((cfg1.win 2).blk ⟨n + 1, hn⟩).view.emb y)
  refine point_weighted1 (V c (Pipeline.arrRef spec1 0)) (V c (Pipeline.arrRef spec1 1)) (iblk1 V c 0 ⟨n, Nat.lt_of_succ_lt hn⟩) (iblk1 V c 0 ⟨n + 1, hn⟩) (iblk1 V c 1 ⟨n, Nat.lt_of_succ_lt hn⟩) (iblk1 V c 1 ⟨n + 1, hn⟩) ⟨n / 2, hb⟩
    h0 h1 h0' h1' y (((cfg1.win 2).blk ⟨n + 1, hn⟩).view.emb y) ?_ ?_ ?_
  · show win1_2.index ⟨n + 1, hn⟩ (0 : Fin 3) * 1 + 1 * (y 0).val = n / 2
    have : (⟨n + 1, hn⟩ : Fin cfg1.N).val = n + 1 := rfl
    omega
  · show win1_2.index ⟨n + 1, hn⟩ (1 : Fin 3) * 19 + 1 * (y 1).val = (y 1).val; omega
  · show win1_2.index ⟨n + 1, hn⟩ (2 : Fin 3) * 256 + 1 * (y 2).val = (y 2).val; omega

/-- What an odd point writes back to the class-mass array is its block of the whole class masses. -/
theorem flushed1_3_eq (c : Dev nD) (t : Fin cfg1.N) (hf : (cfg1.win 3).flush t = true) :
    (dat1 V c).flushed 3 t = ((cfg1.win 3).blk t).view.read (Elt Ideal) (mass (V c (Pipeline.arrRef spec1 0))) := by
  have hN : cfg1.N = 16 := N_1
  have hodd : t.val % 2 = 1 := (flush1_3 t).mp hf
  obtain ⟨n, hn, he, rfl⟩ : ∃ (n : ℕ) (hn : n + 1 < cfg1.N), n % 2 = 0 ∧ t = ⟨n + 1, hn⟩ :=
    ⟨t.val - 1, by have := t.isLt; omega, by omega, Fin.ext (by dsimp only; omega)⟩
  show (cfg1.win 3).cut (grid1.coords ⟨n + 1, hn⟩) ((dat1 V c).after 3 ⟨n + 1, hn⟩) = _
  rw [after1_3]
  show (cfg1.win 3).cut (grid1.coords ⟨n + 1, hn⟩) (outsAt1 V c (n + 1) hn).2 = _
  rw [outs_odd1 V c n hn he]
  obtain ⟨-, -, -, -, -, -, -, -, -, e0, e1, e2⟩ := idx_facts1 ⟨n + 1, hn⟩
  funext y
  have hy0 : (y 0).val < 1 := (y 0).isLt
  have hb : n / 2 < 8 := by omega
  have h0 : ∀ (k : Fin 19) (j : Fin 8192), iblk1 V c 0 ⟨n, Nat.lt_of_succ_lt hn⟩ (ix3 (0 : Fin 1) k j) = V c (Pipeline.arrRef spec1 0) (ix3 (⟨n / 2, hb⟩ : Fin 8) k (lo j)) :=
    fun k j => iblk1_0_apply V c ⟨n, Nat.lt_of_succ_lt hn⟩ k j (ix3 (⟨n / 2, hb⟩ : Fin 8) k (lo j)) rfl rfl (by show j.val = n % 2 * 8192 + j.val; omega)
  have h0' : ∀ (k : Fin 19) (j : Fin 8192), iblk1 V c 0 ⟨n + 1, hn⟩ (ix3 (0 : Fin 1) k j) = V c (Pipeline.arrRef spec1 0) (ix3 (⟨n / 2, hb⟩ : Fin 8) k (hi j)) :=
    fun k j => iblk1_0_apply V c ⟨n + 1, hn⟩ k j (ix3 (⟨n / 2, hb⟩ : Fin 8) k (hi j)) (by show n / 2 = (n + 1) / 2; omega) rfl (by show 8192 + j.val = (n + 1) % 2 * 8192 + j.val; omega)
  rw [View.read_apply]
  show k1_pay5 (iblk1 V c 0 ⟨n + 1, hn⟩) (k1_pay5 (iblk1 V c 0 ⟨n, Nat.lt_of_succ_lt hn⟩) (k1_pay2 (F := Ideal))) y
    = mass (V c (Pipeline.arrRef spec1 0)) (((cfg1.win 3).blk ⟨n + 1, hn⟩).view.emb y)
  refine point_mass1 (V c (Pipeline.arrRef spec1 0)) (iblk1 V c 0 ⟨n, Nat.lt_of_succ_lt hn⟩) (iblk1 V c 0 ⟨n + 1, hn⟩) ⟨n / 2, hb⟩
    h0 h0' y (((cfg1.win 3).blk ⟨n + 1, hn⟩).view.emb y) ?_ ?_
  · show win1_3.index ⟨n + 1, hn⟩ (0 : Fin 3) * 1 + 1 * (y 0).val = n / 2
    have : (⟨n + 1, hn⟩ : Fin cfg1.N).val = n + 1 := rfl
    omega
  · show win1_3.index ⟨n + 1, hn⟩ (1 : Fin 3) * 19 + 1 * (y 1).val = (y 1).val; omega

/-- An index of the weighted-sum array is in a point's block iff each coordinate is in the block's range. -/
theorem mem_blk1_2 (t : Fin cfg1.N) (i : S8x19x256.Idx) :
    i ∈ ((cfg1.win 2).blk t).view.set ↔ ∀ a : Fin 3, win1_2.index t a * S1x19x256.size a ≤ (i a).val ∧ (i a).val < win1_2.index t a * S1x19x256.size a + S1x19x256.size a := by
  show i ∈ ((View.whole main_v5_0).slice (win1_2.rect t)).set ↔ _
  rw [View.set_slice_whole, Rect.mem_set_unit]
  exact Iff.rfl
theorem mem_blk1_3 (t : Fin cfg1.N) (i : S8x19x1.Idx) :
    i ∈ ((cfg1.win 3).blk t).view.set ↔ ∀ a : Fin 3, win1_3.index t a * S1x19x1.size a ≤ (i a).val ∧ (i a).val < win1_3.index t a * S1x19x1.size a + S1x19x1.size a := by
  show i ∈ ((View.whole main_v5_1).slice (win1_3.rect t)).set ↔ _
  rw [View.set_slice_whole, Rect.mem_set_unit]
  exact Iff.rfl

/-- Batch `b`'s block is written back at point `2 b + 1`. -/
theorem covered1_2 (i : S8x19x256.Idx) : ∃ t : Fin cfg1.N, (cfg1.win 2).flush t = true ∧ i ∈ ((cfg1.win 2).blk t).view.set := by
  have hN : cfg1.N = 16 := N_1
  have h0 : (i 0).val < 8 := (i 0).isLt
  have h1 : (i 1).val < 19 := (i 1).isLt
  have h2 : (i 2).val < 256 := (i 2).isLt
  have ht : 2 * (i 0).val + 1 < cfg1.N := by omega
  obtain ⟨-, -, -, -, -, -, e0, e1, e2, -⟩ := idx_facts1 ⟨2 * (i 0).val + 1, ht⟩
  have ev : (⟨2 * (i 0).val + 1, ht⟩ : Fin cfg1.N).val = 2 * (i 0).val + 1 := rfl
  refine ⟨⟨2 * (i 0).val + 1, ht⟩, (flush1_2 _).mpr (by rw [ev]; omega), ?_⟩
  rw [mem_blk1_2]
  intro a
  match a with
  | ⟨0, _⟩ => show win1_2.index ⟨2 * (i 0).val + 1, ht⟩ (0 : Fin 3) * 1 ≤ (i 0).val ∧ (i 0).val < win1_2.index ⟨2 * (i 0).val + 1, ht⟩ (0 : Fin 3) * 1 + 1; omega
  | ⟨1, _⟩ => show win1_2.index ⟨2 * (i 0).val + 1, ht⟩ (1 : Fin 3) * 19 ≤ (i 1).val ∧ (i 1).val < win1_2.index ⟨2 * (i 0).val + 1, ht⟩ (1 : Fin 3) * 19 + 19; omega
  | ⟨2, _⟩ => show win1_2.index ⟨2 * (i 0).val + 1, ht⟩ (2 : Fin 3) * 256 ≤ (i 2).val ∧ (i 2).val < win1_2.index ⟨2 * (i 0).val + 1, ht⟩ (2 : Fin 3) * 256 + 256; omega
theorem covered1_3 (i : S8x19x1.Idx) : ∃ t : Fin cfg1.N, (cfg1.win 3).flush t = true ∧ i ∈ ((cfg1.win 3).blk t).view.set := by
  have hN : cfg1.N = 16 := N_1
  have h0 : (i 0).val < 8 := (i 0).isLt
  have h1 : (i 1).val < 19 := (i 1).isLt
  have h2 : (i 2).val < 1 := (i 2).isLt
  have ht : 2 * (i 0).val + 1 < cfg1.N := by omega
  obtain ⟨-, -, -, -, -, -, -, -, -, e0, e1, e2⟩ := idx_facts1 ⟨2 * (i 0).val + 1, ht⟩
  have ev : (⟨2 * (i 0).val + 1, ht⟩ : Fin cfg1.N).val = 2 * (i 0).val + 1 := rfl
  refine ⟨⟨2 * (i 0).val + 1, ht⟩, (flush1_3 _).mpr (by rw [ev]; omega), ?_⟩
  rw [mem_blk1_3]
  intro a
  match a with
  | ⟨0, _⟩ => show win1_3.index ⟨2 * (i 0).val + 1, ht⟩ (0 : Fin 3) * 1 ≤ (i 0).val ∧ (i 0).val < win1_3.index ⟨2 * (i 0).val + 1, ht⟩ (0 : Fin 3) * 1 + 1; omega
  | ⟨1, _⟩ => show win1_3.index ⟨2 * (i 0).val + 1, ht⟩ (1 : Fin 3) * 19 ≤ (i 1).val ∧ (i 1).val < win1_3.index ⟨2 * (i 0).val + 1, ht⟩ (1 : Fin 3) * 19 + 19; omega
  | ⟨2, _⟩ => show win1_3.index ⟨2 * (i 0).val + 1, ht⟩ (2 : Fin 3) * 1 ≤ (i 2).val ∧ (i 2).val < win1_3.index ⟨2 * (i 0).val + 1, ht⟩ (2 : Fin 3) * 1 + 1; omega

/-- After the region, the weighted-sum array holds the weighted sums of the region's two input arrays … -/
theorem final1_2 (c : Dev nD) : (dat1 V c).arrAt 2 cfg1.N
    = weighted (V c (Pipeline.arrRef spec1 0)) (V c (Pipeline.arrRef spec1 1)) :=
  (dat1 V c).arrAt_eq_of_cover 2 _ (flushed1_2_eq V c) covered1_2
/-- … and the class-mass array the class masses of its mask array. -/
theorem final1_3 (c : Dev nD) : (dat1 V c).arrAt 3 cfg1.N = mass (V c (Pipeline.arrRef spec1 0)) :=
  (dat1 V c).arrAt_eq_of_cover 3 _ (flushed1_3_eq V c) covered1_3

end Region1

end Cert.KernelIdeal.Whole

end
-- ==== Proof.KernelValue.lean ====
/-
  The idealized kernel's result as a function of its arguments. Before the regions the host reshapes the four
  arguments to [8, ·, 16384]; region 0 reads the first pair and leaves their weighted sums and class masses, region 1
  the second pair (it does not touch region 0's arrays, nor region 0 the second pair); the host stretches after the
  regions turn the four arrays into the correlation matrix.
-/
import proofs.«117822_j8675833938581_1_alg».proof.Proof.KernelRun
import proofs.«117822_j8675833938581_1_alg».proof.Proof.KernelTail
import proofs.«117822_j8675833938581_1_alg».proof.Proof.Region
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The reshaped masks and features of the two image sets. -/
abbrev masks1 (c : Dev nD) : (⟨S8x19x16384, .f32⟩ : BufTy).Contents (Elt Ideal) :=
  shapeCast _ (m ((c.tc : Thread nD τ).loc main_arg0)) shapeCasts_S8x19x128x128_S8x19x16384
abbrev feats1 (c : Dev nD) : (⟨S8x256x16384, .f32⟩ : BufTy).Contents (Elt Ideal) :=
  shapeCast _ (m ((c.tc : Thread nD τ).loc main_arg1)) shapeCasts_S8x256x128x128_S8x256x16384
abbrev masks2 (c : Dev nD) : (⟨S8x19x16384, .f32⟩ : BufTy).Contents (Elt Ideal) :=
  shapeCast _ (m ((c.tc : Thread nD τ).loc main_arg2)) shapeCasts_S8x19x128x128_S8x19x16384
abbrev feats2 (c : Dev nD) : (⟨S8x256x16384, .f32⟩ : BufTy).Contents (Elt Ideal) :=
  shapeCast _ (m ((c.tc : Thread nD τ).loc main_arg3)) shapeCasts_S8x256x128x128_S8x256x16384

/-- What the four reshapes leave for the regions. -/
theorem entry_v0 (c : Dev nD) : W1 m ρ c (Proc.devRef .tc main_v0) = masks1 m c := by
  show StableHlo.after hostOps0 (W0 m ρ c) (Proc.devRef .tc main_v0) = _
  after_results; rfl
theorem entry_v1 (c : Dev nD) : W1 m ρ c (Proc.devRef .tc main_v1) = feats1 m c := by
  show StableHlo.after hostOps0 (W0 m ρ c) (Proc.devRef .tc main_v1) = _
  after_results; rfl
theorem entry_v2 (c : Dev nD) : W1 m ρ c (Proc.devRef .tc main_v2) = masks2 m c := by
  show StableHlo.after hostOps0 (W0 m ρ c) (Proc.devRef .tc main_v2) = _
  after_results; rfl
theorem entry_v3 (c : Dev nD) : W1 m ρ c (Proc.devRef .tc main_v3) = feats2 m c := by
  show StableHlo.after hostOps0 (W0 m ρ c) (Proc.devRef .tc main_v3) = _
  after_results; rfl

/-- Region 0's two arrays after both regions. -/
theorem after_v4_0 (c : Dev nD) : W3 m ρ c (Proc.devRef .tc main_v4_0) = weighted (masks1 m c) (feats1 m c) := by
  rw [W3_of_ne m ρ c main_v4_0 (by decide)]
  refine (W2_arr m ρ c 2).trans ?_
  rw [final0_2 (V1 m ρ) c]
  exact congrArg₂ weighted (entry_v0 m ρ c) (entry_v1 m ρ c)
theorem after_v4_1 (c : Dev nD) : W3 m ρ c (Proc.devRef .tc main_v4_1) = mass (masks1 m c) := by
  rw [W3_of_ne m ρ c main_v4_1 (by decide)]
  refine (W2_arr m ρ c 3).trans ?_
  rw [final0_3 (V1 m ρ) c]
  exact congrArg mass (entry_v0 m ρ c)

/-- Region 1's two arrays: its inputs are still what the reshapes left (region 0 wrote neither). -/
theorem after_v5_0 (c : Dev nD) : W3 m ρ c (Proc.devRef .tc main_v5_0) = weighted (masks2 m c) (feats2 m c) := by
  refine (W3_arr m ρ c 2).trans ?_
  rw [final1_2 (V2 m ρ) c]
  refine congrArg₂ weighted ?_ ?_
  · exact (W2_of_ne m ρ c main_v2 (by decide)).trans (entry_v2 m ρ c)
  · exact (W2_of_ne m ρ c main_v3 (by decide)).trans (entry_v3 m ρ c)
theorem after_v5_1 (c : Dev nD) : W3 m ρ c (Proc.devRef .tc main_v5_1) = mass (masks2 m c) := by
  refine (W3_arr m ρ c 3).trans ?_
  rw [final1_3 (V2 m ρ) c]
  exact congrArg mass ((W2_of_ne m ρ c main_v2 (by decide)).trans (entry_v2 m ρ c))

/-- The kernel's result: the correlation matrix of the weighted sums and class masses of the reshaped arguments. -/
abbrev result (c : Dev nD) : Buf (Elt Ideal) ((c.tc : Thread nD τ).loc main_v45) :=
  correlation (weighted (masks1 m c) (feats1 m c)) (mass (masks1 m c)) (weighted (masks2 m c) (feats2 m c)) (mass (masks2 m c))

/-- Every weakly fair execution of the idealized kernel terminates, nothing faulting, with its result buffer at
    `result` and its arguments unchanged. -/
theorem run : θ_run defs (onTc (τ := τ) (main (F := Ideal))) ⟨m, fun _ => 0, ρ⟩ (fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (by
      rw [result_eq m ρ c, after_v4_0, after_v4_1, after_v5_0, after_v5_1]), (h c).2⟩)
    (run_result m ρ)

end Cert.KernelIdeal.Whole

end
-- ==== Proof.RefValue.lean ====
/-
  The reference program's result as the same correlation matrix: its einsum over all 16384 positions is the weighted
  sum, its row sum of the reshaped masks (from zero) is the class mass, and everything after those two stages is,
  operation for operation, what the kernel's host program does after its regions.
-/
import proofs.«117822_j8675833938581_1_alg».proof.Proof.Gen.ReferenceIdeal.Read
import proofs.«117822_j8675833938581_1_alg».proof.Proof.Tail
import proofs.«117822_j8675833938581_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.KernelIdeal.Whole (correlation weighted mass)

/-- The einsum stage is the weighted sum of the two reshaped arrays. -/
theorem einsum_eq (x0 : (⟨S8x19x128x128, .f32⟩ : BufTy).Contents (Elt Ideal)) (x1 : (⟨S8x256x128x128, .f32⟩ : BufTy).Contents (Elt Ideal)) :
    val_main_v2 (F := Ideal) x0 x1 = weighted (val_main_v0 (F := Ideal) x0) (val_main_v1 (F := Ideal) x1) := by
  funext i
  rw [val_main_v2_apply]
  rw [Cert.KernelIdeal.Whole.weighted_apply]
  refine Finset.sum_congr rfl fun n _ => ?_
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The row sums, kept as a unit column, are the class masses of the reshaped masks. -/
theorem rowsum_eq (x0 : (⟨S8x19x128x128, .f32⟩ : BufTy).Contents (Elt Ideal)) :
    val_main_v4 (F := Ideal) x0 = mass (val_main_v0 (F := Ideal) x0) := by
  funext i
  rw [val_main_v4_apply, val_main_v3_apply, val_main_cst_apply]
  show Ideal.ofBits .f32 0x00000000#32 + _ = _
  rw [Ideal.ofBits_zero_f32, zero_add]
  rw [Cert.KernelIdeal.Whole.mass_apply]
  refine Finset.sum_congr rfl fun n _ => congrArg _ (funext fun a => Fin.ext ?_)
  match a with
  | ⟨0, _⟩ => rfl
  | ⟨1, _⟩ => rfl
  | ⟨2, _⟩ => rfl

/-- The same two stages for the second image set. -/
theorem einsum_eq' (x2 : (⟨S8x19x128x128, .f32⟩ : BufTy).Contents (Elt Ideal)) (x3 : (⟨S8x256x128x128, .f32⟩ : BufTy).Contents (Elt Ideal)) :
    val_main_v17 (F := Ideal) x2 x3 = weighted (val_main_v15 (F := Ideal) x2) (val_main_v16 (F := Ideal) x3) := by
  funext i
  rw [val_main_v17_apply]
  rw [Cert.KernelIdeal.Whole.weighted_apply]
  refine Finset.sum_congr rfl fun n _ => ?_
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl
theorem rowsum_eq' (x2 : (⟨S8x19x128x128, .f32⟩ : BufTy).Contents (Elt Ideal)) :
    val_main_v19 (F := Ideal) x2 = mass (val_main_v15 (F := Ideal) x2) := by
  funext i
  rw [val_main_v19_apply, val_main_v18_apply, val_main_cst_3_apply]
  show Ideal.ofBits .f32 0x00000000#32 + _ = _
  rw [Ideal.ofBits_zero_f32, zero_add]
  rw [Cert.KernelIdeal.Whole.mass_apply]
  refine Finset.sum_congr rfl fun n _ => congrArg _ (funext fun a => Fin.ext ?_)
  match a with
  | ⟨0, _⟩ => rfl
  | ⟨1, _⟩ => rfl
  | ⟨2, _⟩ => rfl

set_option maxHeartbeats 4000000 in
/-- The reference's composed term is the correlation matrix of its four stages: the remaining operations are the
    kernel's host operations after its regions, in the same order per image set. -/
theorem result_stages {F : FTy → Type} [FloatOps F] (m : (ℓ : Loc nD τ sig) → Buf (Elt F) ℓ) (c : Dev nD) :
    Cert.ReferenceIdeal.Value.res_main_v49 m c
      = correlation (val_main_v2 (F := F) (m ((c.tc : Thread nD τ).loc main_arg0)) (m ((c.tc : Thread nD τ).loc main_arg1)))
          (val_main_v4 (F := F) (m ((c.tc : Thread nD τ).loc main_arg0)))
          (val_main_v17 (F := F) (m ((c.tc : Thread nD τ).loc main_arg2)) (m ((c.tc : Thread nD τ).loc main_arg3)))
          (val_main_v19 (F := F) (m ((c.tc : Thread nD τ).loc main_arg2))) := by
  unfold Cert.ReferenceIdeal.Value.res_main_v49; rfl

/-- So, at the extended reals, the reference's result is the correlation matrix of the weighted sums and class masses
    of its reshaped arguments. -/
theorem result_eq (m : (ℓ : Loc nD τ sig) → Buf (Elt Ideal) ℓ) (c : Dev nD) :
    Cert.ReferenceIdeal.Value.res_main_v49 m c
      = correlation
          (weighted (val_main_v0 (F := Ideal) (m ((c.tc : Thread nD τ).loc main_arg0))) (val_main_v1 (F := Ideal) (m ((c.tc : Thread nD τ).loc main_arg1))))
          (mass (val_main_v0 (F := Ideal) (m ((c.tc : Thread nD τ).loc main_arg0))))
          (weighted (val_main_v15 (F := Ideal) (m ((c.tc : Thread nD τ).loc main_arg2))) (val_main_v16 (F := Ideal) (m ((c.tc : Thread nD τ).loc main_arg3))))
          (mass (val_main_v15 (F := Ideal) (m ((c.tc : Thread nD τ).loc main_arg2)))) := by
  rw [result_stages, einsum_eq, rowsum_eq, einsum_eq', rowsum_eq']

end Cert.ReferenceIdeal.RefValue

end
-- ==== Proof.lean ====
/-
  The kernel computes, for each of two image sets, the class-weighted sums of the features
  `vec b k c = ∑ₙ preds b k n · feats b c n` and the class masses `ps b k = ∑ₙ preds b k n` over the 16384 positions, in two
  tiles of 8192 positions accumulated in place (the accumulators start from zero at a batch's first tile; the products
  go through a bf16 narrowing that is the identity on extended reals), and then, on the host, the weighted averages
  `vec / ps`, normalised over the classes, averaged over the batch, centred and scaled per class row, and the 19 × 19
  matrix of the two sets' row correlations. The reference computes the same sums with one einsum and one row sum per
  image set and then the same host operations. Over the extended reals the only difference is the grouping of each
  sum into two tiles, and addition there is associative and commutative, so the two results agree entry by entry;
  the precondition is not used. The ideal pass rewrote nothing, so the kernel's idealization is its own text.
-/
import proofs.«117822_j8675833938581_1_alg».proof.Defs
import proofs.«117822_j8675833938581_1_alg».proof.Proof.Gen.Kernel
import proofs.«117822_j8675833938581_1_alg».proof.Proof.Gen.Kernel.Frame
import proofs.«117822_j8675833938581_1_alg».proof.Proof.Gen.KernelIdeal
import proofs.«117822_j8675833938581_1_alg».proof.Proof.Gen.KernelIdeal.Frame
import proofs.«117822_j8675833938581_1_alg».proof.Proof.Gen.ReferenceIdeal
import proofs.«117822_j8675833938581_1_alg».proof.Proof.Gen.ReferenceIdeal.Run
import proofs.«117822_j8675833938581_1_alg».proof.Proof.Gen.ReferenceIdeal.Read
import proofs.«117822_j8675833938581_1_alg».proof.Proof.Gen.Pre_finite_inputs
import proofs.«117822_j8675833938581_1_alg».proof.Proof.KernelValue
import proofs.«117822_j8675833938581_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten by the ideal pass. -/
theorem preserves : Cert.preserves_Kernel_KernelIdeal := trivial

/-- Both idealized programs end with the correlation matrix of the weighted sums and class masses of the reshaped
    arguments; with arguments that agree these are the same arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
